-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x300000 : Shape := ⟨2, ![2, 300000]⟩
abbrev S14x256 : Shape := ⟨2, ![14, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S_ : Shape := ⟨0, ![]⟩

class Facts : Prop where
  bcast_S_S14x256 : S_.BroadcastsInDim S14x256 (![] : Fin 0 → Fin S14x256.rank)
  reducesTo_S14x256_S_d0_1 : S14x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S256x128 .f32) (main_arg11 : FVec F S128 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S3x256 .f32) (main_arg8 : FVec F S3x256 .f32) (main_arg9 : FVec F S3x256 .f32) (main_arg10 : FVec F S256x128 .f32) (main_arg11 : FVec F S128 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg7
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg9
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg10 main_arg11 main_v33

def fn {F : FTy → Type} [FloatOps F] (main_arg0 : IVec S100000 32) (main_arg1 : IVec S2x300000 32) (main_arg2 : IVec S100000 32) (main_arg3 : FVec F S14x256 .f32) (main_arg4 : FVec F S3x256x256 .f32) (main_arg5 : FVec F S3x256 .f32) (main_arg6 : FVec F S3x256 .f32) (main_arg7 : FVec F S3x256 .f32) (main_arg8 : FVec F S3x256 .f32) (main_arg9 : FVec F S3x256 .f32) (main_arg10 : FVec F S256x128 .f32) (main_arg11 : FVec F S128 .f32) : IVec S_ 1 :=
  let main_v0 : FVec F S14x256 .f32 := Host.absf main_arg3
  let main_cst : FVec F S_ .f32 := constant S_ .f32 0x7F800000#32
  let main_v1 : FVec F S14x256 .f32 := broadcastInDim S14x256 ![] bcast_S_S14x256 main_cst
  let main_v2 : IVec S14x256 1 := cmpf .olt main_v0 main_v1
  let main_c : IVec S_ 1 := constantI S_ 1 1#1
  let main_v3 : IVec S_ 1 := (fun x v => Host.reduce IntOp.andi x v reducesTo_S14x256_S_d0_1 h_S_) main_v2 main_c
  let main_v4 : FVec F S3x256x256 .f32 := Host.absf main_arg4
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg5
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg6
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg7 main_arg8 main_arg9 main_arg10 main_arg11 main_v13 main_v16
-- ==== Kernel.lean ====
abbrev S100000 : Shape := ⟨1, ![100000]⟩
abbrev S2x300000 : Shape := ⟨2, ![2, 300000]⟩
abbrev S14x256 : Shape := ⟨2, ![14, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S100000x256 : Shape := ⟨2, ![100000, 256]⟩
abbrev S1x256x256 : Shape := ⟨3, ![1, 256, 256]⟩
abbrev S256x256 : Shape := ⟨2, ![256, 256]⟩
abbrev S2000x256 : Shape := ⟨2, ![2000, 256]⟩
abbrev S400000x256 : Shape := ⟨2, ![400000, 256]⟩
abbrev S1x256 : Shape := ⟨2, ![1, 256]⟩
abbrev S256 : Shape := ⟨1, ![256]⟩
abbrev S10000 : Shape := ⟨1, ![10000]⟩
abbrev S10000x256 : Shape := ⟨2, ![10000, 256]⟩
abbrev S10000x1 : Shape := ⟨2, ![10000, 1]⟩
abbrev S1x128 : Shape := ⟨2, ![1, 128]⟩
abbrev S10000x128 : Shape := ⟨2, ![10000, 128]⟩
abbrev S2000x128 : Shape := ⟨2, ![2000, 128]⟩

abbrev nBuf : Space → Nat
  | .hbm => 184
  | .vmem => 48
  | .smem => 0
  | _ => 0

abbrev hbmTy0_0 (i : Nat) : BufTy := match i % 128 with
  | 0 => ⟨S100000, .i32⟩
  | 1 => ⟨S2x300000, .i32⟩
  | 2 => ⟨S100000, .i32⟩
  | 3 => ⟨S14x256, .f32⟩
  | 4 => ⟨S3x256x256, .f32⟩
  | 5 => ⟨S3x256, .f32⟩
  | 6 => ⟨S3x256, .f32⟩
  | 7 => ⟨S3x256, .f32⟩
  | 8 => ⟨S3x256, .f32⟩
  | 9 => ⟨S3x256, .f32⟩
  | 10 => ⟨S256x128, .f32⟩
  | 11 => ⟨S128, .f32⟩
  | 12 => ⟨S1x300000, .i32⟩
  | 13 => ⟨S300000, .i32⟩
  | 14 => ⟨S1x300000, .i32⟩
  | 15 => ⟨S300000, .i32⟩
  | 16 => ⟨S100000, .i32⟩
  | 17 => ⟨S400000, .i32⟩
  | 18 => ⟨S400000, .i32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x256, .f32⟩
  | 61 => ⟨S1x256x256, .f32⟩
  | 62 => ⟨S256x256, .f32⟩
  | 63 => ⟨S100000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x256, .f32⟩
  | 73 => ⟨S400000x1, .f32⟩
  | 74 => ⟨S400000x256, .f32⟩
  | 75 => ⟨S400000x256, .f32⟩
  | 76 => ⟨S_, .f32⟩
  | 77 => ⟨S100000x256, .f32⟩
  | 78 => ⟨S400000x1, .i32⟩
  | 79 => ⟨S100000x256, .f32⟩
  | 80 => ⟨S1x256, .f32⟩
  | 81 => ⟨S256, .f32⟩
  | 82 => ⟨S1x256, .f32⟩
  | 83 => ⟨S256, .f32⟩
  | 84 => ⟨S1x256, .f32⟩
  | 85 => ⟨S256, .f32⟩
  | 86 => ⟨S1x256, .f32⟩
  | 87 => ⟨S256, .f32⟩
  | 88 => ⟨S1x256, .f32⟩
  | 89 => ⟨S256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S100000x256, .f32⟩
  | 96 => ⟨S1x256x256, .f32⟩
  | 97 => ⟨S256x256, .f32⟩
  | 98 => ⟨S100000x256, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x256, .f32⟩
  | 108 => ⟨S400000x1, .f32⟩
  | 109 => ⟨S400000x256, .f32⟩
  | 110 => ⟨S400000x256, .f32⟩
  | 111 => ⟨S_, .f32⟩
  | 112 => ⟨S100000x256, .f32⟩
  | 113 => ⟨S400000x1, .i32⟩
  | 114 => ⟨S100000x256, .f32⟩
  | 115 => ⟨S1x256, .f32⟩
  | 116 => ⟨S256, .f32⟩
  | 117 => ⟨S1x256, .f32⟩
  | 118 => ⟨S256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S1x256, .f32⟩
  | 127 => ⟨S1x256, .f32⟩
  | _ => ⟨S100000, .i32⟩

abbrev hbmTy0_1 (i : Nat) : BufTy := match i % 128 with
  | 0 => ⟨S1x256, .f32⟩
  | 1 => ⟨S1x256, .f32⟩
  | 2 => ⟨S100000x256, .f32⟩
  | 3 => ⟨S1x256x256, .f32⟩
  | 4 => ⟨S256x256, .f32⟩
  | 5 => ⟨S100000x256, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x256, .f32⟩
  | 15 => ⟨S400000x1, .f32⟩
  | 16 => ⟨S400000x256, .f32⟩
  | 17 => ⟨S400000x256, .f32⟩
  | 18 => ⟨S_, .f32⟩
  | 19 => ⟨S100000x256, .f32⟩
  | 20 => ⟨S400000x1, .i32⟩
  | 21 => ⟨S100000x256, .f32⟩
  | 22 => ⟨S1x256, .f32⟩
  | 23 => ⟨S256, .f32⟩
  | 24 => ⟨S1x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S256, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S100000x256, .f32⟩
  | 38 => ⟨S_, .f32⟩
  | 39 => ⟨S100000, .f32⟩
  | 40 => ⟨S_, .f32⟩
  | 41 => ⟨S10000, .f32⟩
  | 42 => ⟨S100000x1, .i32⟩
  | 43 => ⟨S10000, .f32⟩
  | 44 => ⟨S_, .f32⟩
  | 45 => ⟨S10000x256, .f32⟩
  | 46 => ⟨S100000x1, .i32⟩
  | 47 => ⟨S10000x256, .f32⟩
  | 48 => ⟨S_, .f32⟩
  | 49 => ⟨S10000, .f32⟩
  | 50 => ⟨S10000, .f32⟩
  | 51 => ⟨S10000x1, .f32⟩
  | 52 => ⟨S10000x256, .f32⟩
  | 53 => ⟨S10000x256, .f32⟩
  | 54 => ⟨S1x128, .f32⟩
  | 55 => ⟨S10000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_14 : Ref sig .tc := ⟨.hbm, 134, rfl⟩
abbrev main_v104 : Ref sig .tc := ⟨.hbm, 135, rfl⟩
abbrev main_v105 : Ref sig .tc := ⟨.hbm, 136, rfl⟩
abbrev main_c_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_16 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_17 : Ref sig .tc := ⟨.hbm, 166, rfl⟩
abbrev main_v133 : Ref sig .tc := ⟨.hbm, 167, rfl⟩
abbrev main_cst_18 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_19 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_20 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  slices_S3x256_S1x256_0_0 : S3x256.Slices ![0, 0] S1x256
  shapeCasts_S1x256_S256 : S1x256.ShapeCasts S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S14x256_S100000x1_S100000x256_1_0_n_n_0_1_1256_wf : GatherDims.WF S14x256 S100000x1 S100000x256 [1] [0] [] [0] [] 1 ![1, 256]
  dot_S2000x256_S256x256_S2000x256_1_0_0_1_n_n_wf : DotDims.WF S2000x256 S256x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S10000_S100000x1_S100000_n_0_0_1_wf : ScatterDims.WF S10000 S100000x1 S100000 [] [0] [0] 1
  scatter_S10000x256_S100000x1_S100000x256_1_0_0_1_wf : ScatterDims.WF S10000x256 S100000x1 S100000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S100000x256.size a
  hwx5_6 : ∀ i : grid5.Coords, EltTy.bits .f32 = 32 ∨ (Rect.block (s := S100000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S10000x256.size a
  hwx6_0 : ∀ i : grid6.Coords, EltTy.bits .f32 = 32 ∨ (Rect.block (s := S10000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S10000x128.size a
  hwx6_3 : ∀ i : grid6.Coords, EltTy.bits .f32 = 32 ∨ (Rect.block (s := S10000x128) S2000x128.size (cc6_transform_3 i) (hinb6_3 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S14x256_S100000x1_S100000x256_1_0_n_n_0_1_1256 : GatherDims S14x256 S100000x1 S100000x256 where
  offsetDims := [1]
  collapsedSliceDims := [0]
  operandBatchingDims := []
  startIndicesBatchingDims := []
  startIndexMap := [0]
  indexVectorDim := 1
  sliceSizes := ![1, 256]
  wf := gather_S14x256_S100000x1_S100000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v36) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v68) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v100) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v100) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v116) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v132) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v144) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v145) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v146) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000 : Shape := ⟨1, ![100000]⟩
abbrev S2x300000 : Shape := ⟨2, ![2, 300000]⟩
abbrev S14x256 : Shape := ⟨2, ![14, 256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S100000x256 : Shape := ⟨2, ![100000, 256]⟩
abbrev S1x256x256 : Shape := ⟨3, ![1, 256, 256]⟩
abbrev S256x256 : Shape := ⟨2, ![256, 256]⟩
abbrev S400000x256 : Shape := ⟨2, ![400000, 256]⟩
abbrev S1x256 : Shape := ⟨2, ![1, 256]⟩
abbrev S256 : Shape := ⟨1, ![256]⟩
abbrev S10000 : Shape := ⟨1, ![10000]⟩
abbrev S10000x256 : Shape := ⟨2, ![10000, 256]⟩
abbrev S10000x1 : Shape := ⟨2, ![10000, 1]⟩
abbrev S10000x128 : Shape := ⟨2, ![10000, 128]⟩
abbrev S1x128 : Shape := ⟨2, ![1, 128]⟩

abbrev nBuf : Space → Nat
  | .hbm => 234
  | .vmem => 0
  | .smem => 0
  | _ => 0

abbrev hbmTy0_0 (i : Nat) : BufTy := match i % 128 with
  | 0 => ⟨S100000, .i32⟩
  | 1 => ⟨S2x300000, .i32⟩
  | 2 => ⟨S100000, .i32⟩
  | 3 => ⟨S14x256, .f32⟩
  | 4 => ⟨S3x256x256, .f32⟩
  | 5 => ⟨S3x256, .f32⟩
  | 6 => ⟨S3x256, .f32⟩
  | 7 => ⟨S3x256, .f32⟩
  | 8 => ⟨S3x256, .f32⟩
  | 9 => ⟨S3x256, .f32⟩
  | 10 => ⟨S256x128, .f32⟩
  | 11 => ⟨S128, .f32⟩
  | 12 => ⟨S1x300000, .i32⟩
  | 13 => ⟨S300000, .i32⟩
  | 14 => ⟨S1x300000, .i32⟩
  | 15 => ⟨S300000, .i32⟩
  | 16 => ⟨S100000, .i32⟩
  | 17 => ⟨S400000, .i32⟩
  | 18 => ⟨S400000, .i32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x256, .f32⟩
  | 61 => ⟨S1x256x256, .f32⟩
  | 62 => ⟨S256x256, .f32⟩
  | 63 => ⟨S100000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x256, .f32⟩
  | 73 => ⟨S400000x1, .f32⟩
  | 74 => ⟨S400000x256, .f32⟩
  | 75 => ⟨S400000x256, .f32⟩
  | 76 => ⟨S_, .f32⟩
  | 77 => ⟨S100000x256, .f32⟩
  | 78 => ⟨S400000x1, .i32⟩
  | 79 => ⟨S100000x256, .f32⟩
  | 80 => ⟨S1x256, .f32⟩
  | 81 => ⟨S256, .f32⟩
  | 82 => ⟨S1x256, .f32⟩
  | 83 => ⟨S100000x256, .f32⟩
  | 84 => ⟨S100000x256, .f32⟩
  | 85 => ⟨S1x256, .f32⟩
  | 86 => ⟨S256, .f32⟩
  | 87 => ⟨S1x256, .f32⟩
  | 88 => ⟨S100000x256, .f32⟩
  | 89 => ⟨S100000x256, .f32⟩
  | 90 => ⟨S1x256, .f32⟩
  | 91 => ⟨S256, .f32⟩
  | 92 => ⟨S_, .f32⟩
  | 93 => ⟨S256, .f32⟩
  | 94 => ⟨S256, .f32⟩
  | 95 => ⟨S256, .f32⟩
  | 96 => ⟨S1x256, .f32⟩
  | 97 => ⟨S100000x256, .f32⟩
  | 98 => ⟨S100000x256, .f32⟩
  | 99 => ⟨S1x256, .f32⟩
  | 100 => ⟨S256, .f32⟩
  | 101 => ⟨S1x256, .f32⟩
  | 102 => ⟨S100000x256, .f32⟩
  | 103 => ⟨S100000x256, .f32⟩
  | 104 => ⟨S1x256, .f32⟩
  | 105 => ⟨S256, .f32⟩
  | 106 => ⟨S1x256, .f32⟩
  | 107 => ⟨S100000x256, .f32⟩
  | 108 => ⟨S100000x256, .f32⟩
  | 109 => ⟨S_, .f32⟩
  | 110 => ⟨S100000x256, .f32⟩
  | 111 => ⟨S100000x256, .f32⟩
  | 112 => ⟨S1x256x256, .f32⟩
  | 113 => ⟨S256x256, .f32⟩
  | 114 => ⟨S100000x256, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x256, .f32⟩
  | 124 => ⟨S400000x1, .f32⟩
  | 125 => ⟨S400000x256, .f32⟩
  | 126 => ⟨S400000x256, .f32⟩
  | 127 => ⟨S_, .f32⟩
  | _ => ⟨S100000, .i32⟩

abbrev hbmTy0_1 (i : Nat) : BufTy := match i % 128 with
  | 0 => ⟨S100000x256, .f32⟩
  | 1 => ⟨S400000x1, .i32⟩
  | 2 => ⟨S100000x256, .f32⟩
  | 3 => ⟨S1x256, .f32⟩
  | 4 => ⟨S256, .f32⟩
  | 5 => ⟨S1x256, .f32⟩
  | 6 => ⟨S100000x256, .f32⟩
  | 7 => ⟨S100000x256, .f32⟩
  | 8 => ⟨S1x256, .f32⟩
  | 9 => ⟨S256, .f32⟩
  | 10 => ⟨S1x256, .f32⟩
  | 11 => ⟨S100000x256, .f32⟩
  | 12 => ⟨S100000x256, .f32⟩
  | 13 => ⟨S1x256, .f32⟩
  | 14 => ⟨S256, .f32⟩
  | 15 => ⟨S_, .f32⟩
  | 16 => ⟨S256, .f32⟩
  | 17 => ⟨S256, .f32⟩
  | 18 => ⟨S256, .f32⟩
  | 19 => ⟨S1x256, .f32⟩
  | 20 => ⟨S100000x256, .f32⟩
  | 21 => ⟨S100000x256, .f32⟩
  | 22 => ⟨S1x256, .f32⟩
  | 23 => ⟨S256, .f32⟩
  | 24 => ⟨S1x256, .f32⟩
  | 25 => ⟨S100000x256, .f32⟩
  | 26 => ⟨S100000x256, .f32⟩
  | 27 => ⟨S1x256, .f32⟩
  | 28 => ⟨S256, .f32⟩
  | 29 => ⟨S1x256, .f32⟩
  | 30 => ⟨S100000x256, .f32⟩
  | 31 => ⟨S100000x256, .f32⟩
  | 32 => ⟨S_, .f32⟩
  | 33 => ⟨S100000x256, .f32⟩
  | 34 => ⟨S100000x256, .f32⟩
  | 35 => ⟨S1x256x256, .f32⟩
  | 36 => ⟨S256x256, .f32⟩
  | 37 => ⟨S100000x256, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x256, .f32⟩
  | 47 => ⟨S400000x1, .f32⟩
  | 48 => ⟨S400000x256, .f32⟩
  | 49 => ⟨S400000x256, .f32⟩
  | 50 => ⟨S_, .f32⟩
  | 51 => ⟨S100000x256, .f32⟩
  | 52 => ⟨S400000x1, .i32⟩
  | 53 => ⟨S100000x256, .f32⟩
  | 54 => ⟨S1x256, .f32⟩
  | 55 => ⟨S256, .f32⟩
  | 56 => ⟨S1x256, .f32⟩
  | 57 => ⟨S100000x256, .f32⟩
  | 58 => ⟨S100000x256, .f32⟩
  | 59 => ⟨S1x256, .f32⟩
  | 60 => ⟨S256, .f32⟩
  | 61 => ⟨S1x256, .f32⟩
  | 62 => ⟨S100000x256, .f32⟩
  | 63 => ⟨S100000x256, .f32⟩
  | 64 => ⟨S1x256, .f32⟩
  | 65 => ⟨S256, .f32⟩
  | 66 => ⟨S_, .f32⟩
  | 67 => ⟨S256, .f32⟩
  | 68 => ⟨S256, .f32⟩
  | 69 => ⟨S256, .f32⟩
  | 70 => ⟨S1x256, .f32⟩
  | 71 => ⟨S100000x256, .f32⟩
  | 72 => ⟨S100000x256, .f32⟩
  | 73 => ⟨S1x256, .f32⟩
  | 74 => ⟨S256, .f32⟩
  | 75 => ⟨S1x256, .f32⟩
  | 76 => ⟨S100000x256, .f32⟩
  | 77 => ⟨S100000x256, .f32⟩
  | 78 => ⟨S1x256, .f32⟩
  | 79 => ⟨S256, .f32⟩
  | 80 => ⟨S1x256, .f32⟩
  | 81 => ⟨S100000x256, .f32⟩
  | 82 => ⟨S100000x256, .f32⟩
  | 83 => ⟨S_, .f32⟩
  | 84 => ⟨S100000x256, .f32⟩
  | 85 => ⟨S100000x256, .f32⟩
  | 86 => ⟨S_, .f32⟩
  | 87 => ⟨S100000, .f32⟩
  | 88 => ⟨S_, .f32⟩
  | 89 => ⟨S10000, .f32⟩
  | 90 => ⟨S100000x1, .i32⟩
  | 91 => ⟨S10000, .f32⟩
  | 92 => ⟨S_, .f32⟩
  | 93 => ⟨S10000x256, .f32⟩
  | 94 => ⟨S100000x1, .i32⟩
  | 95 => ⟨S10000x256, .f32⟩
  | 96 => ⟨S_, .f32⟩
  | 97 => ⟨S10000, .f32⟩
  | 98 => ⟨S10000, .f32⟩
  | 99 => ⟨S10000x1, .f32⟩
  | 100 => ⟨S10000x256, .f32⟩
  | 101 => ⟨S10000x256, .f32⟩
  | 102 => ⟨S10000x128, .f32⟩
  | 103 => ⟨S1x128, .f32⟩
  | 104 => ⟨S10000x128, .f32⟩
  | 105 => ⟨S10000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_12 : Ref sig .tc := ⟨.hbm, 115, rfl⟩
abbrev main_v85 : Ref sig .tc := ⟨.hbm, 116, rfl⟩
abbrev main_v86 : Ref sig .tc := ⟨.hbm, 117, rfl⟩
abbrev main_c_13 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_14 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_15 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_call2_cst : Ref sig .tc := ⟨.hbm, 160, rfl⟩
abbrev main_call2_v0 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_16 : Ref sig .tc := ⟨.hbm, 166, rfl⟩
abbrev main_v130 : Ref sig .tc := ⟨.hbm, 167, rfl⟩
abbrev main_v131 : Ref sig .tc := ⟨.hbm, 168, rfl⟩
abbrev main_c_17 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_18 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_19 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_call3_cst : Ref sig .tc := ⟨.hbm, 211, rfl⟩
abbrev main_call3_v0 : Ref sig .tc := ⟨.hbm, 212, rfl⟩
abbrev main_v171 : Ref sig .tc := ⟨.hbm, 213, rfl⟩
abbrev main_cst_20 : Ref sig .tc := ⟨.hbm, 214, rfl⟩
abbrev main_v172 : Ref sig .tc := ⟨.hbm, 215, rfl⟩
abbrev main_cst_21 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_22 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_23 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  slices_S3x256x256_S1x256x256_0_0_0 : S3x256x256.Slices ![0, 0, 0] S1x256x256
  shapeCasts_S1x256x256_S256x256 : S1x256x256.ShapeCasts S256x256
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S14x256_S100000x1_S100000x256_1_0_n_n_0_1_1256_wf : GatherDims.WF S14x256 S100000x1 S100000x256 [1] [0] [] [0] [] 1 ![1, 256]
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S10000_S100000x1_S100000_n_0_0_1_wf : ScatterDims.WF S10000 S100000x1 S100000 [] [0] [0] 1
  scatter_S10000x256_S100000x1_S100000x256_1_0_0_1_wf : ScatterDims.WF S10000x256 S100000x1 S100000x256 [1] [0] [0] 1
  dot_S10000x256_S256x128_S10000x128_1_0_0_1_n_n_wf : DotDims.WF S10000x256 S256x128 S10000x128 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S14x256_S100000x1_S100000x256_1_0_n_n_0_1_1256 : GatherDims S14x256 S100000x1 S100000x256 where
  offsetDims := [1]
  collapsedSliceDims := [0]
  operandBatchingDims := []
  startIndicesBatchingDims := []
  startIndexMap := [0]
  indexVectorDim := 1
  sliceSizes := ![1, 256]
  wf := gather_S14x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRun.lean ====
/-
  The idealized kernel program's run with its RESULT named.

  The program is seven kernel launches among stretches of host operations. Its generated frame certificate folds the
  buffer contents through the sixteen segments: after the last segment every buffer of the TensorCore holds the fold's
  last contents. The frame claim reads only the argument arrays off that last state; here the same run is read once
  more at the result array, which therefore ends at the fold's contents of the last launch's output array.
-/
import proofs.«122568_j8942121910543_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of the projection launch's output array, and the argument arrays end as launched. -/
theorem run : θ_run defs (onTc (τ := τ) (main (F := F))) ⟨m, fun _ => 0, ρ⟩ (fun r => ∀ c : Dev nD,
      r.2.mem ((c.tc : Thread nD τ).loc main_v146) = W16 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v146 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.KRun

end
-- ==== Proof.Spec.lean ====
/-
  The network both programs compute, as one composition of array functions.

  A graph convolution network over 100000 nodes and 400000 edges (300000 given edges and one self-loop per node):
  the symmetric normalisation  norm(e) = dinv(src e) · dinv(dst e)  with  dinv = 1/sqrt(degree)  where the degree is
  positive; the node features  X0 = emb[node_ids];  three layers
      X(l+1) = relu( ((Σ_{e : dst e = n} norm(e) · (X(l) · W(l))(src e)  +  b(l)) − mean(l)) · rsqrt(var(l) + ε) · γ(l) + β(l) );
  a mean over each graph's nodes (sum of rows by graph divided by max(count, 1)); and an affine projection.
  Each definition below is one stage, spelt with the host operations in the order the reference program applies them;
  `out` is their composition. The kernel program computes the three products X(l) · W(l), the three normalisation
  stages and the projection on the accelerator and everything else with the same host operations.
-/
import proofs.«122568_j8942121910543_1_alg».proof.ReferenceIdeal
import proofs.«122568_j8942121910543_1_alg».proof.Proof.Gen.ReferenceIdeal

noncomputable section

namespace Cert.Spec

open Cert.ReferenceIdeal Cert.ReferenceIdeal.Facts₀ Cert.ReferenceIdeal.Facts Idealize.ShloMosaic Idealize.ShloMosaic.TcCoe

variable {F : FTy → Type} [FloatOps F]

/-- An edge list's endpoints of one kind (row `0`: sources, row `1`: destinations) followed by the self-loops 0 … 99999. -/
def srcIdx (ei : (⟨S2x300000, .i32⟩ : BufTy).Contents (Elt F)) : (⟨S400000, .i32⟩ : BufTy).Contents (Elt F) :=
  concatenate S400000 0 [⟨S300000, (shapeCast _ (extractStridedSlice S1x300000 ![0, 0] ei slices_S2x300000_S1x300000_0_0) shapeCasts_S1x300000_S300000)⟩, ⟨S100000, (iotaInDim S100000 32 0)⟩] concatenates_S300000_S100000_S400000_d0
def dstIdx (ei : (⟨S2x300000, .i32⟩ : BufTy).Contents (Elt F)) : (⟨S400000, .i32⟩ : BufTy).Contents (Elt F) :=
  concatenate S400000 0 [⟨S300000, (shapeCast _ (extractStridedSlice S1x300000 ![1, 0] ei slices_S2x300000_S1x300000_1_0) shapeCasts_S1x300000_S300000)⟩, ⟨S100000, (iotaInDim S100000 32 0)⟩] concatenates_S300000_S100000_S400000_d0

/-- A node's degree: the number of edges that end at it. -/
def deg (dst : (⟨S400000, .i32⟩ : BufTy).Contents (Elt F)) : (⟨S100000, .f32⟩ : BufTy).Contents (Elt F) :=
  Host.scatterAdd scatter_S100000_S400000x1_S400000_n_0_0_1 (broadcastInDim S100000 ![] bcast_S_S100000 (constant S_ .f32 0x00000000#32)) (broadcastInDim S400000x1 ![0] bcast_S400000_S400000x1_0 dst) (broadcastInDim S400000 ![] bcast_S_S400000 (constant S_ .f32 0x3F800000#32))

/-- 1/sqrt(degree) where the degree is positive, 0 elsewhere. -/
def dinv (dst : (⟨S400000, .i32⟩ : BufTy).Contents (Elt F)) : (⟨S100000, .f32⟩ : BufTy).Contents (Elt F) :=
  select (cmpf .ogt (deg (F := F) dst) (broadcastInDim S100000 ![] bcast_S_S100000 (constant S_ .f32 0x00000000#32))) (Host.rsqrt (deg (F := F) dst)) (broadcastInDim S100000 ![] bcast_S_S100000 (id (constant S_ .f32 0x00000000#32)))

/-- A negative node index counted from the end (the wrap-around of an indexing expression). -/
def wrap (x : (⟨S400000, .i32⟩ : BufTy).Contents (Elt F)) : (⟨S400000, .i32⟩ : BufTy).Contents (Elt F) :=
  select (cmpi .slt x (broadcastInDim S400000 ![] bcast_S_S400000 (constantI S_ 32 0#32))) (addi x (broadcastInDim S400000 ![] bcast_S_S400000 (constantI S_ 32 100000#32))) x

/-- The edge weights dinv(src e) · dinv(dst e). -/
def norm (src dst : (⟨S400000, .i32⟩ : BufTy).Contents (Elt F)) : (⟨S400000, .f32⟩ : BufTy).Contents (Elt F) :=
  mulf (Host.gather gather_S100000_S400000x1_S400000_n_0_n_n_0_1_1 (dinv (F := F) dst) (broadcastInDim S400000x1 ![0] bcast_S400000_S400000x1_0 (wrap (F := F) src))) (Host.gather gather_S100000_S400000x1_S400000_n_0_n_n_0_1_1 (dinv (F := F) dst) (broadcastInDim S400000x1 ![0] bcast_S400000_S400000x1_0 (wrap (F := F) dst)))

/-- The input features: each node's row of the embedding table. -/
def x0 (ids : (⟨S100000, .i32⟩ : BufTy).Contents (Elt F)) (emb : (⟨S14x256, .f32⟩ : BufTy).Contents (Elt F)) : (⟨S100000x256, .f32⟩ : BufTy).Contents (Elt F) :=
  Host.gather gather_S14x256_S100000x1_S100000x256_1_0_n_n_0_1_1256 emb (broadcastInDim S100000x1 ![0] bcast_S100000_S100000x1_0 (select (cmpi .slt ids (broadcastInDim S100000 ![] bcast_S_S100000 (constantI S_ 32 0#32))) (addi ids (broadcastInDim S100000 ![] bcast_S_S100000 (constantI S_ 32 14#32))) ids))

/-- Layer `l`'s weight matrix out of the stacked weights. -/
def wslice0 (ws : (⟨S3x256x256, .f32⟩ : BufTy).Contents (Elt F)) : (⟨S256x256, .f32⟩ : BufTy).Contents (Elt F) :=
  shapeCast _ (extractStridedSlice S1x256x256 ![0, 0, 0] ws slices_S3x256x256_S1x256x256_0_0_0) shapeCasts_S1x256x256_S256x256
def wslice1 (ws : (⟨S3x256x256, .f32⟩ : BufTy).Contents (Elt F)) : (⟨S256x256, .f32⟩ : BufTy).Contents (Elt F) :=
  shapeCast _ (extractStridedSlice S1x256x256 ![1, 0, 0] ws slices_S3x256x256_S1x256x256_1_0_0) shapeCasts_S1x256x256_S256x256
def wslice2 (ws : (⟨S3x256x256, .f32⟩ : BufTy).Contents (Elt F)) : (⟨S256x256, .f32⟩ : BufTy).Contents (Elt F) :=
  shapeCast _ (extractStridedSlice S1x256x256 ![2, 0, 0] ws slices_S3x256x256_S1x256x256_2_0_0) shapeCasts_S1x256x256_S256x256

/-- Layer `l`'s row of a stacked per-layer parameter, as a vector of 256 entries. -/
def vec0 (p : (⟨S3x256, .f32⟩ : BufTy).Contents (Elt F)) : (⟨S256, .f32⟩ : BufTy).Contents (Elt F) :=
  shapeCast _ (extractStridedSlice S1x256 ![0, 0] p slices_S3x256_S1x256_0_0) shapeCasts_S1x256_S256
def vec1 (p : (⟨S3x256, .f32⟩ : BufTy).Contents (Elt F)) : (⟨S256, .f32⟩ : BufTy).Contents (Elt F) :=
  shapeCast _ (extractStridedSlice S1x256 ![1, 0] p slices_S3x256_S1x256_1_0) shapeCasts_S1x256_S256
def vec2 (p : (⟨S3x256, .f32⟩ : BufTy).Contents (Elt F)) : (⟨S256, .f32⟩ : BufTy).Contents (Elt F) :=
  shapeCast _ (extractStridedSlice S1x256 ![2, 0] p slices_S3x256_S1x256_2_0) shapeCasts_S1x256_S256

/-- The dense product X · W of the node features with a layer's weights. -/
def dot (x : (⟨S100000x256, .f32⟩ : BufTy).Contents (Elt F)) (w : (⟨S256x256, .f32⟩ : BufTy).Contents (Elt F)) : (⟨S100000x256, .f32⟩ : BufTy).Contents (Elt F) :=
  Host.dotGeneral dot_S100000x256_S256x256_S100000x256_1_0_0_1_n_n none x w

/-- The aggregation: node n receives Σ over the edges e that end at n of norm(e) · h(src e). -/
def agg (h : (⟨S100000x256, .f32⟩ : BufTy).Contents (Elt F)) (src dst : (⟨S400000, .i32⟩ : BufTy).Contents (Elt F)) (nrm : (⟨S400000, .f32⟩ : BufTy).Contents (Elt F)) : (⟨S100000x256, .f32⟩ : BufTy).Contents (Elt F) :=
  Host.scatterAdd scatter_S100000x256_S400000x1_S400000x256_1_0_0_1 (broadcastInDim S100000x256 ![] bcast_S_S100000x256 (constant S_ .f32 0x00000000#32)) (broadcastInDim S400000x1 ![0] bcast_S400000_S400000x1_0 dst) (mulf (Host.gather gather_S100000x256_S400000x1_S400000x256_1_0_n_n_0_1_1256 h (broadcastInDim S400000x1 ![0] bcast_S400000_S400000x1_0 (wrap (F := F) src))) (broadcastInDim S400000x256 ![0, 1] bcast_S400000x1_S400000x256_0_1 (broadcastInDim S400000x1 ![0] bcast_S400000_S400000x1_0 nrm)))

/-- A vector of 256 entries repeated over the 100000 rows. -/
def rowB (v : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 v)

/-- Bias, normalisation by the running statistics, and the rectifier, as the reference spells them. -/
def layer (a : (⟨S100000x256, .f32⟩ : BufTy).Contents (Elt F)) (b mu var g be : (⟨S256, .f32⟩ : BufTy).Contents (Elt F)) : (⟨S100000x256, .f32⟩ : BufTy).Contents (Elt F) :=
  maximumf (addf (mulf (mulf (subf (addf a (rowB (F := F) b)) (rowB (F := F) mu)) (rowB (F := F) (Host.rsqrt (addf var (broadcastInDim S256 ![] bcast_S_S256 (constant S_ .f32 0x3727C5AC#32)))))) (rowB (F := F) g)) (rowB (F := F) be)) (broadcastInDim S100000x256 ![] bcast_S_S100000x256 (constant S_ .f32 0x00000000#32))

/-- The mean of the node features over each graph's nodes (a graph without nodes divides by 1). -/
def pool (x : (⟨S100000x256, .f32⟩ : BufTy).Contents (Elt F)) (bid : (⟨S100000, .i32⟩ : BufTy).Contents (Elt F)) : (⟨S10000x256, .f32⟩ : BufTy).Contents (Elt F) :=
  Host.divf (Host.scatterAdd scatter_S10000x256_S100000x1_S100000x256_1_0_0_1 (broadcastInDim S10000x256 ![] bcast_S_S10000x256 (constant S_ .f32 0x00000000#32)) (broadcastInDim S100000x1 ![0] bcast_S100000_S100000x1_0 bid) x) (broadcastInDim S10000x256 ![0, 1] bcast_S10000x1_S10000x256_0_1 (broadcastInDim S10000x1 ![0] bcast_S10000_S10000x1_0 (maximumf (Host.scatterAdd scatter_S10000_S100000x1_S100000_n_0_0_1 (broadcastInDim S10000 ![] bcast_S_S10000 (constant S_ .f32 0x00000000#32)) (broadcastInDim S100000x1 ![0] bcast_S100000_S100000x1_0 bid) (broadcastInDim S100000 ![] bcast_S_S100000 (constant S_ .f32 0x3F800000#32))) (broadcastInDim S10000 ![] bcast_S_S10000 (constant S_ .f32 0x3F800000#32)))))

/-- The projection pooled · W + b. -/
def proj (p : (⟨S10000x256, .f32⟩ : BufTy).Contents (Elt F)) (w : (⟨S256x128, .f32⟩ : BufTy).Contents (Elt F)) (b : (⟨S128, .f32⟩ : BufTy).Contents (Elt F)) : (⟨S10000x128, .f32⟩ : BufTy).Contents (Elt F) :=
  addf (Host.dotGeneral dot_S10000x256_S256x128_S10000x128_1_0_0_1_n_n none p w) (broadcastInDim S10000x128 ![0, 1] bcast_S1x128_S10000x128_0_1 (broadcastInDim S1x128 ![1] bcast_S128_S1x128_1 b))

section Net
variable (ids : (⟨S100000, .i32⟩ : BufTy).Contents (Elt F)) (ei : (⟨S2x300000, .i32⟩ : BufTy).Contents (Elt F)) (bid : (⟨S100000, .i32⟩ : BufTy).Contents (Elt F))
  (emb : (⟨S14x256, .f32⟩ : BufTy).Contents (Elt F)) (ws : (⟨S3x256x256, .f32⟩ : BufTy).Contents (Elt F)) (bs gam bet mean var : (⟨S3x256, .f32⟩ : BufTy).Contents (Elt F))
  (pw : (⟨S256x128, .f32⟩ : BufTy).Contents (Elt F)) (pb : (⟨S128, .f32⟩ : BufTy).Contents (Elt F))

/-- The edge weights of the given edge list with its self-loops. -/
def nrm : (⟨S400000, .f32⟩ : BufTy).Contents (Elt F) := norm (F := F) (srcIdx (F := F) ei) (dstIdx (F := F) ei)

/-- A layer's aggregated product from the features entering it. -/
def pre (x : (⟨S100000x256, .f32⟩ : BufTy).Contents (Elt F)) (w : (⟨S256x256, .f32⟩ : BufTy).Contents (Elt F)) : (⟨S100000x256, .f32⟩ : BufTy).Contents (Elt F) :=
  agg (F := F) (dot (F := F) x w) (srcIdx (F := F) ei) (dstIdx (F := F) ei) (nrm (F := F) ei)

/-- The features after the first, second and third layer. -/
def x1 : (⟨S100000x256, .f32⟩ : BufTy).Contents (Elt F) :=
  layer (F := F) (pre (F := F) ei (x0 (F := F) ids emb) (wslice0 (F := F) ws)) (vec0 (F := F) bs) (vec0 (F := F) mean) (vec0 (F := F) var) (vec0 (F := F) gam) (vec0 (F := F) bet)
def x2 : (⟨S100000x256, .f32⟩ : BufTy).Contents (Elt F) :=
  layer (F := F) (pre (F := F) ei (x1 (F := F) ids ei emb ws bs gam bet mean var) (wslice1 (F := F) ws)) (vec1 (F := F) bs) (vec1 (F := F) mean) (vec1 (F := F) var) (vec1 (F := F) gam) (vec1 (F := F) bet)
def x3 : (⟨S100000x256, .f32⟩ : BufTy).Contents (Elt F) :=
  layer (F := F) (pre (F := F) ei (x2 (F := F) ids ei emb ws bs gam bet mean var) (wslice2 (F := F) ws)) (vec2 (F := F) bs) (vec2 (F := F) mean) (vec2 (F := F) var) (vec2 (F := F) gam) (vec2 (F := F) bet)

/-- The network's result: the projected mean of the last layer's features over each graph. -/
def out : (⟨S10000x128, .f32⟩ : BufTy).Contents (Elt F) :=
  proj (F := F) (pool (F := F) (x3 (F := F) ids ei emb ws bs gam bet mean var) bid) pw pb

end Net

end Cert.Spec

end
-- ==== Proof.Keep.lean ====
/-
  Buffers that later stages read back keep their contents.

  The edge endpoints, the edge weights and the argument arrays are written once, before the first launch, and read
  again by every layer. No later host operation writes them and no launch has one of them as an output array, so at
  every later boundary of the program they hold what they held when the first launch was entered. Likewise a
  normalisation stage's output passes unchanged through the two host operations (a slice of the weights and its
  reshape) between it and the next product.
-/
import proofs.«122568_j8942121910543_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers read back after the first launch: the edge endpoints (sources, destinations), the edge weights, and
    the argument arrays the later stages slice or read. -/
def Kept (b : Ref sig .tc) : Prop :=
  b = main_v5 ∨ b = main_v6 ∨ b = main_v29 ∨ b = main_arg2 ∨ b = main_arg4 ∨ b = main_arg5 ∨ b = main_arg6 ∨ b = main_arg7 ∨ b = main_arg8 ∨ b = main_arg9 ∨ b = main_arg10 ∨ b = main_arg11

/-- A stretch of host operations leaves a buffer alone when none of its operations writes it. -/
macro "not_written" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem step4 (c : Dev nD) (b : Ref sig .tc) (hb : Kept b) : W4 m ρ c (Proc.devRef .tc b) = W3 m ρ c (Proc.devRef .tc b) := by
  rcases hb with rfl | rfl | rfl | rfl | rfl | rfl | rfl | rfl | rfl | rfl | rfl | rfl <;> exact W4_of_ne m ρ c _ (by decide)
theorem step5 (c : Dev nD) (b : Ref sig .tc) (hb : Kept b) : W5 m ρ c (Proc.devRef .tc b) = W4 m ρ c (Proc.devRef .tc b) := by
  rcases hb with rfl | rfl | rfl | rfl | rfl | rfl | rfl | rfl | rfl | rfl | rfl | rfl <;> not_written hostOps1
theorem step6 (c : Dev nD) (b : Ref sig .tc) (hb : Kept b) : W6 m ρ c (Proc.devRef .tc b) = W5 m ρ c (Proc.devRef .tc b) := by
  rcases hb with rfl | rfl | rfl | rfl | rfl | rfl | rfl | rfl | rfl | rfl | rfl | rfl <;> exact W6_of_ne m ρ c _ (by decide)
theorem step7 (c : Dev nD) (b : Ref sig .tc) (hb : Kept b) : W7 m ρ c (Proc.devRef .tc b) = W6 m ρ c (Proc.devRef .tc b) := by
  rcases hb with rfl | rfl | rfl | rfl | rfl | rfl | rfl | rfl | rfl | rfl | rfl | rfl <;> not_written hostOps2
theorem step8 (c : Dev nD) (b : Ref sig .tc) (hb : Kept b) : W8 m ρ c (Proc.devRef .tc b) = W7 m ρ c (Proc.devRef .tc b) := by
  rcases hb with rfl | rfl | rfl | rfl | rfl | rfl | rfl | rfl | rfl | rfl | rfl | rfl <;> exact W8_of_ne m ρ c _ (by decide)
theorem step9 (c : Dev nD) (b : Ref sig .tc) (hb : Kept b) : W9 m ρ c (Proc.devRef .tc b) = W8 m ρ c (Proc.devRef .tc b) := by
  rcases hb with rfl | rfl | rfl | rfl | rfl | rfl | rfl | rfl | rfl | rfl | rfl | rfl <;> not_written hostOps3
theorem step10 (c : Dev nD) (b : Ref sig .tc) (hb : Kept b) : W10 m ρ c (Proc.devRef .tc b) = W9 m ρ c (Proc.devRef .tc b) := by
  rcases hb with rfl | rfl | rfl | rfl | rfl | rfl | rfl | rfl | rfl | rfl | rfl | rfl <;> exact W10_of_ne m ρ c _ (by decide)
theorem step11 (c : Dev nD) (b : Ref sig .tc) (hb : Kept b) : W11 m ρ c (Proc.devRef .tc b) = W10 m ρ c (Proc.devRef .tc b) := by
  rcases hb with rfl | rfl | rfl | rfl | rfl | rfl | rfl | rfl | rfl | rfl | rfl | rfl <;> not_written hostOps4
theorem step12 (c : Dev nD) (b : Ref sig .tc) (hb : Kept b) : W12 m ρ c (Proc.devRef .tc b) = W11 m ρ c (Proc.devRef .tc b) := by
  rcases hb with rfl | rfl | rfl | rfl | rfl | rfl | rfl | rfl | rfl | rfl | rfl | rfl <;> exact W12_of_ne m ρ c _ (by decide)
theorem step13 (c : Dev nD) (b : Ref sig .tc) (hb : Kept b) : W13 m ρ c (Proc.devRef .tc b) = W12 m ρ c (Proc.devRef .tc b) := by
  rcases hb with rfl | rfl | rfl | rfl | rfl | rfl | rfl | rfl | rfl | rfl | rfl | rfl <;> not_written hostOps5
theorem step14 (c : Dev nD) (b : Ref sig .tc) (hb : Kept b) : W14 m ρ c (Proc.devRef .tc b) = W13 m ρ c (Proc.devRef .tc b) := by
  rcases hb with rfl | rfl | rfl | rfl | rfl | rfl | rfl | rfl | rfl | rfl | rfl | rfl <;> exact W14_of_ne m ρ c _ (by decide)
theorem step15 (c : Dev nD) (b : Ref sig .tc) (hb : Kept b) : W15 m ρ c (Proc.devRef .tc b) = W14 m ρ c (Proc.devRef .tc b) := by
  rcases hb with rfl | rfl | rfl | rfl | rfl | rfl | rfl | rfl | rfl | rfl | rfl | rfl <;> not_written hostOps6
/-- At boundary 4 a kept buffer holds what it held when the first launch was entered. -/
theorem at4 (c : Dev nD) (b : Ref sig .tc) (hb : Kept b) : W4 m ρ c (Proc.devRef .tc b) = W3 m ρ c (Proc.devRef .tc b) :=
  (step4 m ρ c b hb)
/-- At boundary 6 a kept buffer holds what it held when the first launch was entered. -/
theorem at6 (c : Dev nD) (b : Ref sig .tc) (hb : Kept b) : W6 m ρ c (Proc.devRef .tc b) = W3 m ρ c (Proc.devRef .tc b) :=
  ((step6 m ρ c b hb).trans ((step5 m ρ c b hb).trans (step4 m ρ c b hb)))
/-- At boundary 8 a kept buffer holds what it held when the first launch was entered. -/
theorem at8 (c : Dev nD) (b : Ref sig .tc) (hb : Kept b) : W8 m ρ c (Proc.devRef .tc b) = W3 m ρ c (Proc.devRef .tc b) :=
  ((step8 m ρ c b hb).trans ((step7 m ρ c b hb).trans ((step6 m ρ c b hb).trans ((step5 m ρ c b hb).trans (step4 m ρ c b hb)))))
/-- At boundary 10 a kept buffer holds what it held when the first launch was entered. -/
theorem at10 (c : Dev nD) (b : Ref sig .tc) (hb : Kept b) : W10 m ρ c (Proc.devRef .tc b) = W3 m ρ c (Proc.devRef .tc b) :=
  ((step10 m ρ c b hb).trans ((step9 m ρ c b hb).trans ((step8 m ρ c b hb).trans ((step7 m ρ c b hb).trans ((step6 m ρ c b hb).trans ((step5 m ρ c b hb).trans (step4 m ρ c b hb)))))))
/-- At boundary 12 a kept buffer holds what it held when the first launch was entered. -/
theorem at12 (c : Dev nD) (b : Ref sig .tc) (hb : Kept b) : W12 m ρ c (Proc.devRef .tc b) = W3 m ρ c (Proc.devRef .tc b) :=
  ((step12 m ρ c b hb).trans ((step11 m ρ c b hb).trans ((step10 m ρ c b hb).trans ((step9 m ρ c b hb).trans ((step8 m ρ c b hb).trans ((step7 m ρ c b hb).trans ((step6 m ρ c b hb).trans ((step5 m ρ c b hb).trans (step4 m ρ c b hb)))))))))
/-- At boundary 14 a kept buffer holds what it held when the first launch was entered. -/
theorem at14 (c : Dev nD) (b : Ref sig .tc) (hb : Kept b) : W14 m ρ c (Proc.devRef .tc b) = W3 m ρ c (Proc.devRef .tc b) :=
  ((step14 m ρ c b hb).trans ((step13 m ρ c b hb).trans ((step12 m ρ c b hb).trans ((step11 m ρ c b hb).trans ((step10 m ρ c b hb).trans ((step9 m ρ c b hb).trans ((step8 m ρ c b hb).trans ((step7 m ρ c b hb).trans ((step6 m ρ c b hb).trans ((step5 m ρ c b hb).trans (step4 m ρ c b hb)))))))))))
/-- At boundary 15 a kept buffer holds what it held when the first launch was entered. -/
theorem at15 (c : Dev nD) (b : Ref sig .tc) (hb : Kept b) : W15 m ρ c (Proc.devRef .tc b) = W3 m ρ c (Proc.devRef .tc b) :=
  ((step15 m ρ c b hb).trans ((step14 m ρ c b hb).trans ((step13 m ρ c b hb).trans ((step12 m ρ c b hb).trans ((step11 m ρ c b hb).trans ((step10 m ρ c b hb).trans ((step9 m ρ c b hb).trans ((step8 m ρ c b hb).trans ((step7 m ρ c b hb).trans ((step6 m ρ c b hb).trans ((step5 m ρ c b hb).trans (step4 m ρ c b hb))))))))))))

/-- The second layer's input features pass unchanged through the slice of the weights before the second product. -/
theorem v68_step7 (c : Dev nD) : W7 m ρ c (Proc.devRef .tc main_v68) = W6 m ρ c (Proc.devRef .tc main_v68) := by
  not_written hostOps2
/-- The third layer's input features pass unchanged through the slice of the weights before the third product. -/
theorem v100_step11 (c : Dev nD) : W11 m ρ c (Proc.devRef .tc main_v100) = W10 m ρ c (Proc.devRef .tc main_v100) := by
  not_written hostOps4

end Cert.KernelIdeal.Keep

end
-- ==== Proof.Prep.lean ====
/-
  Before the first launch: the edge endpoints, the edge weights, the input features and the first layer's weights.

  The host computes, from the argument arrays alone: the edge sources and destinations with one self-loop per node
  appended; each node's degree (edges counted by destination), its inverse square root where the degree is positive
  (an outlined selection), and the edge weights dinv(src) · dinv(dst); the input features (each node's row of the
  embedding table); and the first slice of the stacked weights. The three stretches of host operations are read one
  after the other, each from whatever contents it starts at, and each result is the network's definition of that
  stage applied to the argument arrays. The argument arrays themselves are not written.
-/
import proofs.«122568_j8942121910543_1_alg».proof.Proof.Gen.KernelIdeal.Frame
import proofs.«122568_j8942121910543_1_alg».proof.Proof.Spec
import proofs.«122568_j8942121910543_1_alg».proof.Proof.Keep
import Idealize.ShloMosaic.Lib.StableHlo.Run
import Idealize.ShloMosaic.PureOps.Ideal

set_option maxRecDepth 65536
set_option maxHeartbeats 4000000

noncomputable section

namespace Cert.KernelIdeal.Prep

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg)

/-- An argument array is not written before the first launch. -/
theorem W3_arg (c : Dev nD) (b : Ref sig .tc) (hb : b = main_arg2 ∨ b = main_arg4 ∨ b = main_arg5 ∨ b = main_arg6 ∨ b = main_arg7 ∨ b = main_arg8 ∨ b = main_arg9 ∨ b = main_arg10 ∨ b = main_arg11) :
    W3 m ρ c (Proc.devRef .tc b) = m ((c.tc : Thread nD τ).loc b) := by
  have h2 : W3 m ρ c (Proc.devRef .tc b) = W2 m ρ c (Proc.devRef .tc b) := by
    rcases hb with rfl | rfl | rfl | rfl | rfl | rfl | rfl | rfl | rfl <;> not_written hostOps0_2
  have h1 : W2 m ρ c (Proc.devRef .tc b) = W1 m ρ c (Proc.devRef .tc b) := by
    rcases hb with rfl | rfl | rfl | rfl | rfl | rfl | rfl | rfl | rfl <;> not_written hostOps0_1
  have h0 : W1 m ρ c (Proc.devRef .tc b) = W0 m ρ c (Proc.devRef .tc b) := by
    rcases hb with rfl | rfl | rfl | rfl | rfl | rfl | rfl | rfl | rfl <;> not_written hostOps0
  exact h2.trans (h1.trans (h0.trans rfl))

/-! ## The first stretch: endpoints, degrees -/

/-- The edge sources, then the self-loops. -/
theorem W1_v5 (c : Dev nD) : W1 m ρ c (Proc.devRef .tc main_v5) = Cert.Spec.srcIdx (F := Ideal) (m ((c.tc : Thread nD τ).loc main_arg1)) := by
  show StableHlo.after hostOps0 (W0 m ρ c) (Proc.devRef .tc main_v5) = _
  after_results_simp
  rfl
/-- The edge destinations, then the self-loops. -/
theorem W1_v6 (c : Dev nD) : W1 m ρ c (Proc.devRef .tc main_v6) = Cert.Spec.dstIdx (F := Ideal) (m ((c.tc : Thread nD τ).loc main_arg1)) := by
  show StableHlo.after hostOps0 (W0 m ρ c) (Proc.devRef .tc main_v6) = _
  after_results_simp
  rfl
/-- Each node's degree, counted by destination. -/
theorem W1_v10 (c : Dev nD) : W1 m ρ c (Proc.devRef .tc main_v10) = Cert.Spec.deg (F := Ideal) (Cert.Spec.dstIdx (F := Ideal) (m ((c.tc : Thread nD τ).loc main_arg1))) := by
  show StableHlo.after hostOps0 (W0 m ρ c) (Proc.devRef .tc main_v10) = _
  after_results_simp
  rfl

/-- Where the degree is positive. -/
theorem W1_v12 (c : Dev nD) : W1 m ρ c (Proc.devRef .tc main_v12) = cmpf .ogt (Cert.Spec.deg (F := Ideal) (Cert.Spec.dstIdx (F := Ideal) (m ((c.tc : Thread nD τ).loc main_arg1)))) (broadcastInDim S100000 ![] bcast_S_S100000 (constant (F := Ideal) S_ .f32 0x00000000#32)) := by
  show StableHlo.after hostOps0 (W0 m ρ c) (Proc.devRef .tc main_v12) = _
  after_results_simp
  rfl
/-- The inverse square root of the degree. -/
theorem W1_v13 (c : Dev nD) : W1 m ρ c (Proc.devRef .tc main_v13) = Host.rsqrt (F := Ideal) (φ := .f32) (Cert.Spec.deg (F := Ideal) (Cert.Spec.dstIdx (F := Ideal) (m ((c.tc : Thread nD τ).loc main_arg1)))) := by
  show StableHlo.after hostOps0 (W0 m ρ c) (Proc.devRef .tc main_v13) = _
  after_results_simp
  rfl
/-- The zero that replaces the inverse square root where the degree is not positive. -/
theorem W1_cst2 (c : Dev nD) : W1 m ρ c (Proc.devRef .tc main_cst_2) = constant (F := Ideal) S_ .f32 0x00000000#32 := by
  show StableHlo.after hostOps0 (W0 m ρ c) (Proc.devRef .tc main_cst_2) = _
  after_results_simp
/-! ## The selection, from any contents -/

/-- The outlined selection reads its three operands and writes their `select`. -/
theorem where_stage (V1 : Valuation τ sig (Elt Ideal)) :
    StableHlo.after hostOps0_1 V1 (Proc.devRef .tc main_v14) = select (V1 (Proc.devRef .tc main_v12)) (V1 (Proc.devRef .tc main_v13)) (broadcastInDim S100000 ![] bcast_S_S100000 (id (V1 (Proc.devRef .tc main_cst_2)))) := by
  after_results_simp
  rfl
/-- 1/sqrt(degree) where the degree is positive, 0 elsewhere. -/
theorem W2_v14 (c : Dev nD) : W2 m ρ c (Proc.devRef .tc main_v14) = Cert.Spec.dinv (F := Ideal) (Cert.Spec.dstIdx (F := Ideal) (m ((c.tc : Thread nD τ).loc main_arg1))) := by
  show StableHlo.after hostOps0_1 (W1 m ρ c) (Proc.devRef .tc main_v14) = _
  rw [where_stage, W1_v12 m ρ c, W1_v13 m ρ c, W1_cst2 m ρ c]
  rfl
/-- The selection writes neither endpoint list. -/
theorem W2_v5 (c : Dev nD) : W2 m ρ c (Proc.devRef .tc main_v5) = Cert.Spec.srcIdx (F := Ideal) (m ((c.tc : Thread nD τ).loc main_arg1)) :=
  (show W2 m ρ c (Proc.devRef .tc main_v5) = W1 m ρ c (Proc.devRef .tc main_v5) by not_written hostOps0_1).trans (W1_v5 m ρ c)
theorem W2_v6 (c : Dev nD) : W2 m ρ c (Proc.devRef .tc main_v6) = Cert.Spec.dstIdx (F := Ideal) (m ((c.tc : Thread nD τ).loc main_arg1)) :=
  (show W2 m ρ c (Proc.devRef .tc main_v6) = W1 m ρ c (Proc.devRef .tc main_v6) by not_written hostOps0_1).trans (W1_v6 m ρ c)
/-- The argument arrays are as launched after the first two stretches. -/
theorem W2_arg (c : Dev nD) (b : Ref sig .tc) (hb : b = main_arg0 ∨ b = main_arg3 ∨ b = main_arg4) :
    W2 m ρ c (Proc.devRef .tc b) = m ((c.tc : Thread nD τ).loc b) := by
  have h1 : W2 m ρ c (Proc.devRef .tc b) = W1 m ρ c (Proc.devRef .tc b) := by
    rcases hb with rfl | rfl | rfl <;> not_written hostOps0_1
  have h0 : W1 m ρ c (Proc.devRef .tc b) = W0 m ρ c (Proc.devRef .tc b) := by
    rcases hb with rfl | rfl | rfl <;> not_written hostOps0
  exact h1.trans (h0.trans rfl)
/-- The edge weights from the inverse square roots of the degrees and the two endpoint lists. -/
def normOf {F : FTy → Type} [FloatOps F] (dv : (⟨S100000, .f32⟩ : BufTy).Contents (Elt F)) (src dst : (⟨S400000, .i32⟩ : BufTy).Contents (Elt F)) : (⟨S400000, .f32⟩ : BufTy).Contents (Elt F) :=
  mulf (Host.gather gather_S100000_S400000x1_S400000_n_0_n_n_0_1_1 dv (broadcastInDim S400000x1 ![0] bcast_S400000_S400000x1_0 (Cert.Spec.wrap (F := F) src)))
    (Host.gather gather_S100000_S400000x1_S400000_n_0_n_n_0_1_1 dv (broadcastInDim S400000x1 ![0] bcast_S400000_S400000x1_0 (Cert.Spec.wrap (F := F) dst)))
/-- The third stretch computes the edge weights from whatever the inverse square roots and the endpoint lists hold. -/
theorem norm_stage' (V2 : Valuation τ sig (Elt Ideal)) :
    StableHlo.after hostOps0_2 V2 (Proc.devRef .tc main_v29)
      = normOf (F := Ideal) (V2 (Proc.devRef .tc main_v14)) (V2 (Proc.devRef .tc main_v5)) (V2 (Proc.devRef .tc main_v6)) := by
  after_results_simp
  rfl
/-- and the input features from the node identifiers and the embedding table, -/
theorem x0_stage (V2 : Valuation τ sig (Elt Ideal)) :
    StableHlo.after hostOps0_2 V2 (Proc.devRef .tc main_v36) = Cert.Spec.x0 (F := Ideal) (V2 (Proc.devRef .tc main_arg0)) (V2 (Proc.devRef .tc main_arg3)) := by
  after_results_simp
  rfl
/-- and the first layer's weights from the stacked weights. -/
theorem w0_stage (V2 : Valuation τ sig (Elt Ideal)) :
    StableHlo.after hostOps0_2 V2 (Proc.devRef .tc main_v38) = Cert.Spec.wslice0 (F := Ideal) (V2 (Proc.devRef .tc main_arg4)) := by
  after_results_simp
  rfl
/-! ## When the first launch is entered -/

/-- The edge weights. -/
theorem W3_v29 (c : Dev nD) : W3 m ρ c (Proc.devRef .tc main_v29) = Cert.Spec.nrm (F := Ideal) (m ((c.tc : Thread nD τ).loc main_arg1)) := by
  show StableHlo.after hostOps0_2 (W2 m ρ c) (Proc.devRef .tc main_v29) = _
  rw [norm_stage', W2_v14 m ρ c, W2_v5 m ρ c, W2_v6 m ρ c]
  rfl
/-- The input features. -/
theorem W3_v36 (c : Dev nD) : W3 m ρ c (Proc.devRef .tc main_v36) = Cert.Spec.x0 (F := Ideal) (m ((c.tc : Thread nD τ).loc main_arg0)) (m ((c.tc : Thread nD τ).loc main_arg3)) := by
  show StableHlo.after hostOps0_2 (W2 m ρ c) (Proc.devRef .tc main_v36) = _
  rw [x0_stage, W2_arg m ρ c main_arg0 (Or.inl rfl), W2_arg m ρ c main_arg3 (Or.inr (Or.inl rfl))]
/-- The first layer's weights. -/
theorem W3_v38 (c : Dev nD) : W3 m ρ c (Proc.devRef .tc main_v38) = Cert.Spec.wslice0 (F := Ideal) (m ((c.tc : Thread nD τ).loc main_arg4)) := by
  show StableHlo.after hostOps0_2 (W2 m ρ c) (Proc.devRef .tc main_v38) = _
  rw [w0_stage, W2_arg m ρ c main_arg4 (Or.inr (Or.inr rfl))]
/-- The edge sources and destinations with the self-loops. -/
theorem W3_v5 (c : Dev nD) : W3 m ρ c (Proc.devRef .tc main_v5) = Cert.Spec.srcIdx (F := Ideal) (m ((c.tc : Thread nD τ).loc main_arg1)) :=
  (show W3 m ρ c (Proc.devRef .tc main_v5) = W2 m ρ c (Proc.devRef .tc main_v5) by not_written hostOps0_2).trans (W2_v5 m ρ c)
theorem W3_v6 (c : Dev nD) : W3 m ρ c (Proc.devRef .tc main_v6) = Cert.Spec.dstIdx (F := Ideal) (m ((c.tc : Thread nD τ).loc main_arg1)) :=
  (show W3 m ρ c (Proc.devRef .tc main_v6) = W2 m ρ c (Proc.devRef .tc main_v6) by not_written hostOps0_2).trans (W2_v6 m ρ c)

end Cert.KernelIdeal.Prep

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«122568_j8942121910543_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«122568_j8942121910543_1_alg».proof.Proof.LibMatmulAt
import proofs.«122568_j8942121910543_1_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.RegionDot.lean ====
/-
  The three dense layers' products and the projection, block by block.

  Each region multiplies a block of 2000 rows of an [N, 256] array by a whole [256, C] array into a zero accumulator and
  writes the block back to rows 2000·t … 2000·t + 1999 of the output array. Entry (p, q) of block t's product is the
  sum over k of row 2000·t + p of the left array at k times the right array at (k, q): entry (2000·t + p, q) of the
  whole product. The 50 blocks (5 for the projection) tile the output array, so the array ends holding the whole
  product (for the projection: plus the one bias row broadcast over the rows).
-/
import proofs.«122568_j8942121910543_1_alg».proof.Proof.Gen.KernelIdeal.Frame
import proofs.«122568_j8942121910543_1_alg».proof.Proof.Gen.ReferenceIdeal
import proofs.«122568_j8942121910543_1_alg».proof.Proof.LibBlockDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionDot

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.KernelIdeal.Facts

variable (V : (c : Dev nD) → (b : Ref sig .tc) → Buf (Elt Ideal) ((c : Thread nD τ).loc b))

/-- The zero offsets of a whole-block access. -/
theorem off_zero : (![0, 0] : Fin 2 → Nat) = fun _ => 0 := funext fun a => by fin_cases a <;> rfl

/-- The payload of a dense layer's block at (p, q): the block's product into the zero accumulator, the operands'
    changes of format being the identity on the extended reals. It is entry (P, q) of the host's product of any
    [100000, 256] array whose row P is the block's row p with any [256, 256] array that agrees with the right block. -/
theorem pay0_apply (x0 : Vec Ideal S2000x256 .f32) (x1 : Vec Ideal S256x256 .f32)
    (X : FVec Ideal S100000x256 .f32) (W : FVec Ideal S256x256 .f32) (p : Fin 2000) (P : Fin 100000) (q : Fin 256)
    (h0 : ∀ k : Fin 256, (x0 (ix2 p k) : EReal) = X (ix2 P k))
    (h1 : ∀ k : Fin 256, (x1 (ix2 k q) : EReal) = W (ix2 k q)) :
    k0_pay1 (F := Ideal) x0 x1 (ix2 p q)
      = Host.dotGeneral (F := Ideal) Cert.ReferenceIdeal.dot_S100000x256_S256x256_S100000x256_1_0_0_1_n_n none X W (ix2 P q) := by
  unfold k0_pay1
  exact Cert.LibBlockDot.matmul_block_apply dot_S2000x256_S256x256_S2000x256_1_0_0_1_n_n rfl rfl rfl rfl rfl rfl
    Cert.ReferenceIdeal.Facts₀.dot_S100000x256_S256x256_S100000x256_1_0_0_1_n_n_wf none none _ _ X W p P q
    (fun k => by rw [shapeCast_self]; exact h0 k) (fun k => by rw [shapeCast_self]; exact h1 k)

/-! ## Region 0: the first layer's product -/

/-- The printed index maps over the grid: the row-block windows sit at block (t, 0), the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 2000·t … 2000·t + 1999 of its array. -/
theorem lblk0_apply (c : Dev nD) (t : Fin cfg0.N) (p : Fin 2000) (k : Fin 256) (P : Fin 100000)
    (hP : P.val = 2000 * t.val + p.val) :
    (iblk0 V c 0 t : Vec Ideal S2000x256 .f32) (ix2 p k) = (V c main_v36 : S100000x256.Idx → EReal) (ix2 P k) := by
  obtain ⟨e0, e1, -⟩ := idx0 t
  unfold iblk0
  rw [View.read_apply]
  show V c main_v36 _ = V c main_v36 _
  refine congrArg _ (funext fun a => Fin.ext ?_)
  match a with
  | ⟨0, _⟩ => show win0_0.index t (0 : Fin 2) * 2000 + 1 * p.val = P.val; omega
  | ⟨1, _⟩ => show win0_0.index t (1 : Fin 2) * 256 + 1 * k.val = k.val; omega

/-- The right window's block at every point is its whole array. -/
theorem rblk0_apply (c : Dev nD) (t : Fin cfg0.N) (k : Fin 256) (q : Fin 256) :
    (iblk0 V c 1 t : Vec Ideal S256x256 .f32) (ix2 k q) = (V c main_v38 : S256x256.Idx → EReal) (ix2 k q) := by
  obtain ⟨-, -, e2, e3, -⟩ := idx0 t
  unfold iblk0
  rw [View.read_apply]
  show V c main_v38 _ = V c main_v38 _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The whole product the first layer's output array ends holding. -/
abbrev G0 (c : Dev nD) : FVec Ideal S100000x256 .f32 :=
  Host.dotGeneral (F := Ideal) (φ₁ := .f32) (φ₂ := .f32) Cert.ReferenceIdeal.dot_S100000x256_S256x256_S100000x256_1_0_0_1_n_n none
    (V c main_v36) (V c main_v38)

/-- What point t writes back is block t of the whole product. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero off_zero]
  simp only [View.ld_unit_zero (S := S2000x256) off_zero, View.ld_unit_zero (S := S256x256) off_zero]
  obtain ⟨-, -, -, -, e4, e5⟩ := idx0 t
  have hN : cfg0.N = 50 := N_0
  funext y
  obtain ⟨p, q, rfl⟩ : ∃ (p : Fin 2000) (q : Fin 256), y = ix2 p q := ⟨y 0, y 1, eq_ix2 y⟩
  have ht : t.val < 50 := hN ▸ t.isLt
  have hP : 2000 * t.val + p.val < 100000 := by omega
  have hemb : ((cfg0.win 2).blk t).view.emb (ix2 p q) = (ix2 (⟨2000 * t.val + p.val, hP⟩ : Fin 100000) q : S100000x256.Idx) := by
    funext a; apply Fin.ext
    match a with
    | ⟨0, _⟩ => show win0_2.index t (0 : Fin 2) * 2000 + 1 * p.val = 2000 * t.val + p.val; omega
    | ⟨1, _⟩ => show win0_2.index t (1 : Fin 2) * 256 + 1 * q.val = q.val; omega
  show k0_pay1 (F := Ideal) (iblk0 V c 0 t) (iblk0 V c 1 t) (ix2 p q) = G0 V c (((cfg0.win 2).blk t).view.emb (ix2 p q))
  rw [hemb]
  exact pay0_apply _ _ _ _ p ⟨2000 * t.val + p.val, hP⟩ q (fun k => lblk0_apply V c t p k ⟨2000 * t.val + p.val, hP⟩ rfl)
    (fun k => rblk0_apply V c t k q)

/-- An index of the output array is in point t's block iff each coordinate is in the block's range on its axis. -/
theorem mem_blk0 (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v39).slice (win0_2.rect t)).set ↔ _
  rw [View.set_slice_whole, Rect.mem_set_unit]
  exact Iff.rfl

/-- Row r of the output array is in the block of point r / 2000. -/
theorem cover0 (i : S100000x256.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 256 := (i 1).isLt
  obtain ⟨t, ht⟩ : ∃ t : Fin cfg0.N, t.val = (i 0).val / 2000 := ⟨⟨(i 0).val / 2000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- THE FIRST LAYER'S OUTPUT ARRAY after the region: the whole product of the two arrays the region reads. -/
theorem region0_out (c : Dev nD) : (dat0 (F := Ideal) V c).arrAt 2 cfg0.N
    = Host.dotGeneral (F := Ideal) (φ₁ := .f32) (φ₂ := .f32) Cert.ReferenceIdeal.dot_S100000x256_S256x256_S100000x256_1_0_0_1_n_n none
        (V c main_v36) (V c main_v38) :=
  (dat0 (F := Ideal) V c).arrAt_eq_of_cover 2 (G0 V c) (fun t _ => flushed0_eq V c t) cover0

/-! ## Region 2: the second layer's product -/

/-- The second layer's payload is the first layer's: the same product of the same operands. -/
theorem pay2_apply (x0 : Vec Ideal S2000x256 .f32) (x1 : Vec Ideal S256x256 .f32)
    (X : FVec Ideal S100000x256 .f32) (W : FVec Ideal S256x256 .f32) (p : Fin 2000) (P : Fin 100000) (q : Fin 256)
    (h0 : ∀ k : Fin 256, (x0 (ix2 p k) : EReal) = X (ix2 P k))
    (h1 : ∀ k : Fin 256, (x1 (ix2 k q) : EReal) = W (ix2 k q)) :
    k2_pay1 (F := Ideal) x0 x1 (ix2 p q)
      = Host.dotGeneral (F := Ideal) Cert.ReferenceIdeal.dot_S100000x256_S256x256_S100000x256_1_0_0_1_n_n none X W (ix2 P q) :=
  pay0_apply x0 x1 X W p P q h0 h1

/-- The printed index maps over the grid: the row-block windows sit at block (t, 0), the weight window at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 2000·t … 2000·t + 1999 of its array. -/
theorem lblk2_apply (c : Dev nD) (t : Fin cfg2.N) (p : Fin 2000) (k : Fin 256) (P : Fin 100000)
    (hP : P.val = 2000 * t.val + p.val) :
    (iblk2 V c 0 t : Vec Ideal S2000x256 .f32) (ix2 p k) = (V c main_v68 : S100000x256.Idx → EReal) (ix2 P k) := by
  obtain ⟨e0, e1, -⟩ := idx2 t
  unfold iblk2
  rw [View.read_apply]
  show V c main_v68 _ = V c main_v68 _
  refine congrArg _ (funext fun a => Fin.ext ?_)
  match a with
  | ⟨0, _⟩ => show win2_0.index t (0 : Fin 2) * 2000 + 1 * p.val = P.val; omega
  | ⟨1, _⟩ => show win2_0.index t (1 : Fin 2) * 256 + 1 * k.val = k.val; omega

/-- The right window's block at every point is its whole array. -/
theorem rblk2_apply (c : Dev nD) (t : Fin cfg2.N) (k : Fin 256) (q : Fin 256) :
    (iblk2 V c 1 t : Vec Ideal S256x256 .f32) (ix2 k q) = (V c main_v70 : S256x256.Idx → EReal) (ix2 k q) := by
  obtain ⟨-, -, e2, e3, -⟩ := idx2 t
  unfold iblk2
  rw [View.read_apply]
  show V c main_v70 _ = V c main_v70 _
  refine congrArg _ (funext fun a => Fin.ext ?_)
  match a with
  | ⟨0, _⟩ => show win2_1.index t (0 : Fin 2) * 256 + 1 * k.val = k.val; omega
  | ⟨1, _⟩ => show win2_1.index t (1 : Fin 2) * 256 + 1 * q.val = q.val; omega

/-- The whole product the second layer's output array ends holding. -/
abbrev G2 (c : Dev nD) : FVec Ideal S100000x256 .f32 :=
  Host.dotGeneral (F := Ideal) (φ₁ := .f32) (φ₂ := .f32) Cert.ReferenceIdeal.dot_S100000x256_S256x256_S100000x256_1_0_0_1_n_n none
    (V c main_v68) (V c main_v70)

/-- What point t writes back is block t of the whole product. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  unfold out2_2
  rw [View.canon_unit_zero off_zero]
  simp only [View.ld_unit_zero (S := S2000x256) off_zero, View.ld_unit_zero (S := S256x256) off_zero]
  obtain ⟨-, -, -, -, e4, e5⟩ := idx2 t
  have hN : cfg2.N = 50 := N_2
  funext y
  obtain ⟨p, q, rfl⟩ : ∃ (p : Fin 2000) (q : Fin 256), y = ix2 p q := ⟨y 0, y 1, eq_ix2 y⟩
  have ht : t.val < 50 := hN ▸ t.isLt
  have hP : 2000 * t.val + p.val < 100000 := by omega
  have hemb : ((cfg2.win 2).blk t).view.emb (ix2 p q) = (ix2 (⟨2000 * t.val + p.val, hP⟩ : Fin 100000) q : S100000x256.Idx) := by
    funext a; apply Fin.ext
    match a with
    | ⟨0, _⟩ => show win2_2.index t (0 : Fin 2) * 2000 + 1 * p.val = 2000 * t.val + p.val; omega
    | ⟨1, _⟩ => show win2_2.index t (1 : Fin 2) * 256 + 1 * q.val = q.val; omega
  show k2_pay1 (F := Ideal) (iblk2 V c 0 t) (iblk2 V c 1 t) (ix2 p q) = G2 V c (((cfg2.win 2).blk t).view.emb (ix2 p q))
  rw [hemb]
  exact pay2_apply _ _ _ _ p ⟨2000 * t.val + p.val, hP⟩ q (fun k => lblk2_apply V c t p k ⟨2000 * t.val + p.val, hP⟩ rfl)
    (fun k => rblk2_apply V c t k q)

/-- An index of the output array is in point t's block iff each coordinate is in the block's range on its axis. -/
theorem mem_blk2 (t : Fin cfg2.N) (i : S100000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v71).slice (win2_2.rect t)).set ↔ _
  rw [View.set_slice_whole, Rect.mem_set_unit]
  exact Iff.rfl

/-- Row r of the output array is in the block of point r / 2000. -/
theorem cover2 (i : S100000x256.Idx) :
    ∃ t : Fin cfg2.N, (cfg2.win 2).flush t = true ∧ i ∈ ((cfg2.win 2).blk t).view.set := by
  have hN : cfg2.N = 50 := N_2
  have hi0 : (i 0).val < 100000 := (i 0).isLt
  have hi1 : (i 1).val < 256 := (i 1).isLt
  obtain ⟨t, ht⟩ : ∃ t : Fin cfg2.N, t.val = (i 0).val / 2000 := ⟨⟨(i 0).val / 2000, by rw [hN]; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- THE SECOND LAYER'S OUTPUT ARRAY after the region: the whole product of the two arrays the region reads. -/
theorem region2_out (c : Dev nD) : (dat2 (F := Ideal) V c).arrAt 2 cfg2.N
    = Host.dotGeneral (F := Ideal) (φ₁ := .f32) (φ₂ := .f32) Cert.ReferenceIdeal.dot_S100000x256_S256x256_S100000x256_1_0_0_1_n_n none
        (V c main_v68) (V c main_v70) :=
  (dat2 (F := Ideal) V c).arrAt_eq_of_cover 2 (G2 V c) (fun t _ => flushed2_eq V c t) cover2

/-! ## Region 4: the third layer's product -/

/-- The third layer's payload is the first layer's: the same product of the same operands. -/
theorem pay4_apply (x0 : Vec Ideal S2000x256 .f32) (x1 : Vec Ideal S256x256 .f32)
    (X : FVec Ideal S100000x256 .f32) (W : FVec Ideal S256x256 .f32) (p : Fin 2000) (P : Fin 100000) (q : Fin 256)
    (h0 : ∀ k : Fin 256, (x0 (ix2 p k) : EReal) = X (ix2 P k))
    (h1 : ∀ k : Fin 256, (x1 (ix2 k q) : EReal) = W (ix2 k q)) :
    k4_pay1 (F := Ideal) x0 x1 (ix2 p q)
      = Host.dotGeneral (F := Ideal) Cert.ReferenceIdeal.dot_S100000x256_S256x256_S100000x256_1_0_0_1_n_n none X W (ix2 P q) :=
  pay0_apply x0 x1 X W p P q h0 h1

/-- The printed index maps over the grid: the row-block windows sit at block (t, 0), the weight window at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 2000·t … 2000·t + 1999 of its array. -/
theorem lblk4_apply (c : Dev nD) (t : Fin cfg4.N) (p : Fin 2000) (k : Fin 256) (P : Fin 100000)
    (hP : P.val = 2000 * t.val + p.val) :
    (iblk4 V c 0 t : Vec Ideal S2000x256 .f32) (ix2 p k) = (V c main_v100 : S100000x256.Idx → EReal) (ix2 P k) := by
  obtain ⟨e0, e1, -⟩ := idx4 t
  unfold iblk4
  rw [View.read_apply]
  show V c main_v100 _ = V c main_v100 _
  refine congrArg _ (funext fun a => Fin.ext ?_)
  match a with
  | ⟨0, _⟩ => show win4_0.index t (0 : Fin 2) * 2000 + 1 * p.val = P.val; omega
  | ⟨1, _⟩ => show win4_0.index t (1 : Fin 2) * 256 + 1 * k.val = k.val; omega

/-- The right window's block at every point is its whole array. -/
theorem rblk4_apply (c : Dev nD) (t : Fin cfg4.N) (k : Fin 256) (q : Fin 256) :
    (iblk4 V c 1 t : Vec Ideal S256x256 .f32) (ix2 k q) = (V c main_v102 : S256x256.Idx → EReal) (ix2 k q) := by
  obtain ⟨-, -, e2, e3, -⟩ := idx4 t
  unfold iblk4
  rw [View.read_apply]
  show V c main_v102 _ = V c main_v102 _
  refine congrArg _ (funext fun a => Fin.ext ?_)
  match a with
  | ⟨0, _⟩ => show win4_1.index t (0 : Fin 2) * 256 + 1 * k.val = k.val; omega
  | ⟨1, _⟩ => show win4_1.index t (1 : Fin 2) * 256 + 1 * q.val = q.val; omega

/-- The whole product the third layer's output array ends holding. -/
abbrev G4 (c : Dev nD) : FVec Ideal S100000x256 .f32 :=
  Host.dotGeneral (F := Ideal) (φ₁ := .f32) (φ₂ := .f32) Cert.ReferenceIdeal.dot_S100000x256_S256x256_S100000x256_1_0_0_1_n_n none
    (V c main_v100) (V c main_v102)

/-- What point t writes back is block t of the whole product. -/
theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 (F := Ideal) V c).after 2 t) = _
  rw [after4_2]
  unfold out4_2
  rw [View.canon_unit_zero off_zero]
  simp only [View.ld_unit_zero (S := S2000x256) off_zero, View.ld_unit_zero (S := S256x256) off_zero]
  obtain ⟨-, -, -, -, e4, e5⟩ := idx4 t
  have hN : cfg4.N = 50 := N_4
  funext y
  obtain ⟨p, q, rfl⟩ : ∃ (p : Fin 2000) (q : Fin 256), y = ix2 p q := ⟨y 0, y 1, eq_ix2 y⟩
  have ht : t.val < 50 := hN ▸ t.isLt
  have hP : 2000 * t.val + p.val < 100000 := by omega
  have hemb : ((cfg4.win 2).blk t).view.emb (ix2 p q) = (ix2 (⟨2000 * t.val + p.val, hP⟩ : Fin 100000) q : S100000x256.Idx) := by
    funext a; apply Fin.ext
    match a with
    | ⟨0, _⟩ => show win4_2.index t (0 : Fin 2) * 2000 + 1 * p.val = 2000 * t.val + p.val; omega
    | ⟨1, _⟩ => show win4_2.index t (1 : Fin 2) * 256 + 1 * q.val = q.val; omega
  show k4_pay1 (F := Ideal) (iblk4 V c 0 t) (iblk4 V c 1 t) (ix2 p q) = G4 V c (((cfg4.win 2).blk t).view.emb (ix2 p q))
  rw [hemb]
  exact pay4_apply _ _ _ _ p ⟨2000 * t.val + p.val, hP⟩ q (fun k => lblk4_apply V c t p k ⟨2000 * t.val + p.val, hP⟩ rfl)
    (fun k => rblk4_apply V c t k q)

/-- An index of the output array is in point t's block iff each coordinate is in the block's range on its axis. -/
theorem mem_blk4 (t : Fin cfg4.N) (i : S100000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v103).slice (win4_2.rect t)).set ↔ _
  rw [View.set_slice_whole, Rect.mem_set_unit]
  exact Iff.rfl

/-- Row r of the output array is in the block of point r / 2000. -/
theorem cover4 (i : S100000x256.Idx) :
    ∃ t : Fin cfg4.N, (cfg4.win 2).flush t = true ∧ i ∈ ((cfg4.win 2).blk t).view.set := by
  have hN : cfg4.N = 50 := N_4
  have hi0 : (i 0).val < 100000 := (i 0).isLt
  have hi1 : (i 1).val < 256 := (i 1).isLt
  obtain ⟨t, ht⟩ : ∃ t : Fin cfg4.N, t.val = (i 0).val / 2000 := ⟨⟨(i 0).val / 2000, by rw [hN]; omega⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 256 ≤ (i 1).val ∧ (i 1).val < win4_2.index t (1 : Fin 2) * 256 + 256
    omega

/-- THE THIRD LAYER'S OUTPUT ARRAY after the region: the whole product of the two arrays the region reads. -/
theorem region4_out (c : Dev nD) : (dat4 (F := Ideal) V c).arrAt 2 cfg4.N
    = Host.dotGeneral (F := Ideal) (φ₁ := .f32) (φ₂ := .f32) Cert.ReferenceIdeal.dot_S100000x256_S256x256_S100000x256_1_0_0_1_n_n none
        (V c main_v100) (V c main_v102) :=
  (dat4 (F := Ideal) V c).arrAt_eq_of_cover 2 (G4 V c) (fun t _ => flushed4_eq V c t) cover4

end Cert.KernelIdeal.RegionDot

end
-- ==== Proof.RegionDot6.lean ====
/-
  The projection, block by block.

  The last region multiplies a block of 2000 rows of the pooled [10000, 256] array by the whole [256, 128] array into a
  zero accumulator, adds the one [1, 128] bias row to every row, and writes the block back to rows 2000·t … 2000·t + 1999
  of the output array. Entry (p, q) of block t is entry (2000·t + p, q) of the whole product plus the bias at q; the 5
  blocks tile the output array, so the array ends holding the whole product plus the bias row broadcast over the rows.
-/
import proofs.«122568_j8942121910543_1_alg».proof.Proof.Gen.KernelIdeal.Frame
import proofs.«122568_j8942121910543_1_alg».proof.Proof.Gen.ReferenceIdeal
import proofs.«122568_j8942121910543_1_alg».proof.Proof.LibBlockDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionDot

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access. -/
theorem off_zero6 : (![0, 0] : Fin 2 → Nat) = fun _ => 0 := funext fun a => by fin_cases a <;> rfl

/-- The bias vector, made a [1, 128] row and then broadcast over 10000 rows, read at (P, q), is the bias at q. -/
theorem bias_rows_apply (pb : FVec Ideal S128 .f32) (P : Fin 10000) (q : Fin 128) :
    broadcastInDim Cert.ReferenceIdeal.S10000x128 ![0, 1] Cert.ReferenceIdeal.Facts₀.bcast_S1x128_S10000x128_0_1
      (broadcastInDim Cert.ReferenceIdeal.S1x128 ![1] Cert.ReferenceIdeal.Facts₀.bcast_S128_S1x128_1 pb) (ix2 P q) = pb (ix1 q) := by
  refine (broadcastInDim_apply _ _ _ (ix2 P q) (ix2 (0 : Fin 1) q) fun a => ?_).trans
    (broadcastInDim_apply _ _ pb (ix2 (0 : Fin 1) q) (ix1 q) fun a => ?_)
  · match a with
    | ⟨0, _⟩ => rfl
    | ⟨1, _⟩ => rfl
  · match a with
    | ⟨0, _⟩ => rfl

/-- The projection's payload at (p, q): the block's product into the zero accumulator plus the bias row at q, the
    operands' changes of format being the identity on the extended reals. -/
theorem pay6_apply (x0 : Vec Ideal S2000x256 .f32) (x1 : Vec Ideal S256x128 .f32) (x2 : Vec Ideal S1x128 .f32)
    (X : FVec Ideal S10000x256 .f32) (W : FVec Ideal S256x128 .f32) (p : Fin 2000) (P : Fin 10000) (q : Fin 128)
    (h0 : ∀ k : Fin 256, (x0 (ix2 p k) : EReal) = X (ix2 P k))
    (h1 : ∀ k : Fin 256, (x1 (ix2 k q) : EReal) = W (ix2 k q)) :
    k6_pay1 (F := Ideal) x0 x1 x2 (ix2 p q)
      = Host.dotGeneral (F := Ideal) Cert.ReferenceIdeal.dot_S10000x256_S256x128_S10000x128_1_0_0_1_n_n none X W (ix2 P q)
        + x2 (ix2 (0 : Fin 1) q) := by
  unfold k6_pay1
  rw [addf_apply, broadcastTo_1b_ab_apply, shapeCast_self, shapeCast_self]
  refine congrArg (· + x2 (ix2 (0 : Fin 1) q)) ?_
  exact Cert.LibBlockDot.matmul_block_apply dot_S2000x256_S256x128_S2000x128_1_0_0_1_n_n rfl rfl rfl rfl rfl rfl
    Cert.ReferenceIdeal.Facts₀.dot_S10000x256_S256x128_S10000x128_1_0_0_1_n_n_wf none none _ _ X W p P q
    (fun k => h0 k) (fun k => h1 k)

/-! ## The blocks -/

/-- The printed index maps over the grid: the row-block windows sit at block (t, 0), the weight and bias windows at
    block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The left window's block at point t is rows 2000·t … 2000·t + 1999 of the pooled array. -/
theorem lblk6_apply (c : Dev nD) (t : Fin cfg6.N) (p : Fin 2000) (k : Fin 256) (P : Fin 10000)
    (hP : P.val = 2000 * t.val + p.val) :
    (iblk6 V c 0 t : Vec Ideal S2000x256 .f32) (ix2 p k) = (V c main_v144 : S10000x256.Idx → EReal) (ix2 P k) := by
  obtain ⟨e0, e1, -⟩ := idx6 t
  unfold iblk6
  rw [View.read_apply]
  show V c main_v144 _ = V c main_v144 _
  refine congrArg _ (funext fun a => Fin.ext ?_)
  match a with
  | ⟨0, _⟩ => show win6_0.index t (0 : Fin 2) * 2000 + 1 * p.val = P.val; omega
  | ⟨1, _⟩ => show win6_0.index t (1 : Fin 2) * 256 + 1 * k.val = k.val; omega

/-- The weight window's block at every point is its whole array. -/
theorem rblk6_apply (c : Dev nD) (t : Fin cfg6.N) (k : Fin 256) (q : Fin 128) :
    (iblk6 V c 1 t : Vec Ideal S256x128 .f32) (ix2 k q) = (V c main_arg10 : S256x128.Idx → EReal) (ix2 k q) := by
  obtain ⟨-, -, e2, e3, -⟩ := idx6 t
  unfold iblk6
  rw [View.read_apply]
  show V c main_arg10 _ = V c main_arg10 _
  refine congrArg _ (funext fun a => Fin.ext ?_)
  match a with
  | ⟨0, _⟩ => show win6_1.index t (0 : Fin 2) * 256 + 1 * k.val = k.val; omega
  | ⟨1, _⟩ => show win6_1.index t (1 : Fin 2) * 128 + 1 * q.val = q.val; omega

/-- The bias window's block at every point is its whole [1, 128] array. -/
theorem bblk6_apply (c : Dev nD) (t : Fin cfg6.N) (u : Fin 1) (q : Fin 128) :
    (iblk6 V c 2 t : Vec Ideal S1x128 .f32) (ix2 u q) = (V c main_v145 : S1x128.Idx → EReal) (ix2 u q) := by
  obtain ⟨-, -, -, -, e4, e5, -⟩ := idx6 t
  unfold iblk6
  rw [View.read_apply]
  show V c main_v145 _ = V c main_v145 _
  refine congrArg _ (funext fun a => Fin.ext ?_)
  match a with
  | ⟨0, _⟩ => show win6_2.index t (0 : Fin 2) * 1 + 1 * u.val = u.val; omega
  | ⟨1, _⟩ => show win6_2.index t (1 : Fin 2) * 128 + 1 * q.val = q.val; omega

/-- What the projection's output array ends holding: the whole product plus the bias row over every row. -/
abbrev G6 (c : Dev nD) (pb : FVec Ideal S128 .f32) : FVec Ideal S10000x128 .f32 :=
  addf (Host.dotGeneral (F := Ideal) (φ₁ := .f32) (φ₂ := .f32) Cert.ReferenceIdeal.dot_S10000x256_S256x128_S10000x128_1_0_0_1_n_n none
      (V c main_v144) (V c main_arg10))
    (broadcastInDim Cert.ReferenceIdeal.S10000x128 ![0, 1] Cert.ReferenceIdeal.Facts₀.bcast_S1x128_S10000x128_0_1
      (broadcastInDim Cert.ReferenceIdeal.S1x128 ![1] Cert.ReferenceIdeal.Facts₀.bcast_S128_S1x128_1 pb))

/-- What point t writes back is block t of that array, when the bias window's array is the bias vector as a row. -/
theorem flushed6_eq (c : Dev nD) (pb : FVec Ideal S128 .f32)
    (hpb : (V c main_v145 : FVec Ideal S1x128 .f32) = shapeCast S1x128 pb shapeCasts_S128_S1x128) (t : Fin cfg6.N) :
    (dat6 (F := Ideal) V c).flushed 3 t = ((cfg6.win 3).blk t).view.read (Elt Ideal) (G6 V c pb) := by
  show (cfg6.win 3).cut (grid6.coords t) ((dat6 (F := Ideal) V c).after 3 t) = _
  rw [after6_3]
  unfold out6_3
  rw [View.canon_unit_zero off_zero6]
  simp only [View.ld_unit_zero (S := S2000x256) off_zero6, View.ld_unit_zero (S := S256x128) off_zero6,
    View.ld_unit_zero (S := S1x128) off_zero6]
  obtain ⟨-, -, -, -, -, -, e6, e7⟩ := idx6 t
  have hN : cfg6.N = 5 := N_6
  funext y
  obtain ⟨p, q, rfl⟩ : ∃ (p : Fin 2000) (q : Fin 128), y = ix2 p q := ⟨y 0, y 1, eq_ix2 y⟩
  have ht : t.val < 5 := hN ▸ t.isLt
  have hP : 2000 * t.val + p.val < 10000 := by omega
  have hemb : ((cfg6.win 3).blk t).view.emb (ix2 p q) = (ix2 (⟨2000 * t.val + p.val, hP⟩ : Fin 10000) q : S10000x128.Idx) := by
    funext a; apply Fin.ext
    match a with
    | ⟨0, _⟩ => show win6_3.index t (0 : Fin 2) * 2000 + 1 * p.val = 2000 * t.val + p.val; omega
    | ⟨1, _⟩ => show win6_3.index t (1 : Fin 2) * 128 + 1 * q.val = q.val; omega
  show k6_pay1 (F := Ideal) (iblk6 V c 0 t) (iblk6 V c 1 t) (iblk6 V c 2 t) (ix2 p q) = G6 V c pb (((cfg6.win 3).blk t).view.emb (ix2 p q))
  unfold G6
  rw [hemb, addf_apply, bias_rows_apply,
    pay6_apply _ _ _ _ _ p ⟨2000 * t.val + p.val, hP⟩ q (fun k => lblk6_apply V c t p k ⟨2000 * t.val + p.val, hP⟩ rfl)
      (fun k => rblk6_apply V c t k q),
    bblk6_apply V c t 0 q, hpb, shapeCast_a_1a_apply]

/-- An index of the output array is in point t's block iff each coordinate is in the block's range on its axis. -/
theorem mem_blk6 (t : Fin cfg6.N) (i : S10000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v146).slice (win6_3.rect t)).set ↔ _
  rw [View.set_slice_whole, Rect.mem_set_unit]
  exact Iff.rfl

/-- Row r of the output array is in the block of point r / 2000. -/
theorem cover6 (i : S10000x128.Idx) :
    ∃ t : Fin cfg6.N, (cfg6.win 3).flush t = true ∧ i ∈ ((cfg6.win 3).blk t).view.set := by
  have hN : cfg6.N = 5 := N_6
  have hi0 : (i 0).val < 10000 := (i 0).isLt
  have hi1 : (i 1).val < 128 := (i 1).isLt
  obtain ⟨t, ht⟩ : ∃ t : Fin cfg6.N, t.val = (i 0).val / 2000 := ⟨⟨(i 0).val / 2000, by rw [hN]; omega⟩, rfl⟩
  obtain ⟨-, -, -, -, -, -, e6, e7⟩ := idx6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    omega
  | ⟨1, _⟩ =>
    show win6_3.index t (1 : Fin 2) * 128 ≤ (i 1).val ∧ (i 1).val < win6_3.index t (1 : Fin 2) * 128 + 128
    omega

/-- THE PROJECTION'S OUTPUT ARRAY after the region: the whole product of the pooled array with the projection weights,
    plus the bias vector over every row, when the bias window's array is the bias vector as a [1, 128] row. -/
theorem region6_out (c : Dev nD) (pb : FVec Ideal S128 .f32)
    (hpb : (V c main_v145 : FVec Ideal S1x128 .f32) = shapeCast S1x128 pb shapeCasts_S128_S1x128) :
    (dat6 (F := Ideal) V c).arrAt 3 cfg6.N
      = addf (Host.dotGeneral (F := Ideal) (φ₁ := .f32) (φ₂ := .f32) Cert.ReferenceIdeal.dot_S10000x256_S256x128_S10000x128_1_0_0_1_n_n none
            (V c main_v144) (V c main_arg10))
          (broadcastInDim Cert.ReferenceIdeal.S10000x128 ![0, 1] Cert.ReferenceIdeal.Facts₀.bcast_S1x128_S10000x128_0_1
            (broadcastInDim Cert.ReferenceIdeal.S1x128 ![1] Cert.ReferenceIdeal.Facts₀.bcast_S128_S1x128_1 pb)) :=
  (dat6 (F := Ideal) V c).arrAt_eq_of_cover 3 (G6 V c pb) (fun t _ => flushed6_eq V c pb hpb t) cover6

end Cert.KernelIdeal.RegionDot

end
-- ==== Proof.BnSpec.lean ====
/-
  One graph-convolution layer's pointwise tail, as a function of its arrays index by index.

  For an activation array `a : [100000, 256]` and five rows `b, mu, var, g, be : [1, 256]` (bias, running mean, running
  variance, scale, shift) the layer's value at row `p`, column `q` is

      max ((((a p q + b q) − mu q) · rsqrt (var q + ε)) · g q + be q) 0,

  with `ε` the single-precision word `0x3727C5AC` and `0` the zero word, both kept as words, every operation the exact one
  on the extended reals.
-/
import Idealize.ShloMosaic.PureOps.Ideal
import Idealize.ShloMosaic.Lib.ValueIdx

namespace Cert.BnSpec

open Idealize.ShloMosaic Idealize.ShloMosaic.ValueIdx

/-- The layer's value at one entry, from the activation's entry and the five rows' entries of its column. -/
noncomputable def bnAt (a b mu var g be : EReal) : EReal :=
  max ((((a + b) - mu) * Ideal.rsqrt (var + Ideal.ofBits .f32 0x3727C5AC#32)) * g + be) (Ideal.ofBits .f32 0x00000000#32)

/-- The layer's value as an array: entry `(p, q)` from `a (p, q)` and the rows at `(0, q)`. -/
noncomputable def bn (a : FVec Ideal ⟨2, ![100000, 256]⟩ .f32) (b mu var g be : FVec Ideal ⟨2, ![1, 256]⟩ .f32) :
    FVec Ideal ⟨2, ![100000, 256]⟩ .f32 :=
  fun i => bnAt (a i) (b (ix2 (0 : Fin 1) (i 1))) (mu (ix2 (0 : Fin 1) (i 1))) (var (ix2 (0 : Fin 1) (i 1)))
    (g (ix2 (0 : Fin 1) (i 1))) (be (ix2 (0 : Fin 1) (i 1)))

/-- The array read at `(p, q)`. -/
theorem bn_apply (a : FVec Ideal ⟨2, ![100000, 256]⟩ .f32) (b mu var g be : FVec Ideal ⟨2, ![1, 256]⟩ .f32)
    (p : Fin 100000) (q : Fin 256) :
    bn a b mu var g be (ix2 p q) = bnAt (a (ix2 p q)) (b (ix2 (0 : Fin 1) q)) (mu (ix2 (0 : Fin 1) q)) (var (ix2 (0 : Fin 1) q))
      (g (ix2 (0 : Fin 1) q)) (be (ix2 (0 : Fin 1) q)) := rfl

end Cert.BnSpec
-- ==== Proof.RegionBn.lean ====
/-
  The three pointwise regions of the layer stack, array by array.

  Each region reads an activation array `a : [100000, 256]` two thousand rows at a time and five resident rows
  `[1, 256]`, and writes, block by block, the array `Cert.BnSpec.bn` of them: entry `(p, q)` is
  `max ((((a p q + b q) − mu q) · rsqrt (var q + ε)) · g q + be q) 0`.

  Per region: the body's stored value at an entry of a block (`pay_apply`), the blocks of the seven windows read off the
  arrays (`idx_facts`, `emb_out`, `blk_a`, `blk_row`), what a grid point writes back as a block of the array
  (`flushed_eq`), the blocks' cover of the rows (`cover`), and the array after the region (`region_out`).
-/
import proofs.«122568_j8942121910543_1_alg».proof.Proof.Gen.KernelIdeal.Frame
import proofs.«122568_j8942121910543_1_alg».proof.Proof.BnSpec
import Idealize.ShloMosaic.Lib.Pipeline.Value
import Idealize.ShloMosaic.Lib.ValueIdx
import Idealize.ShloMosaic.Lib.ValueLayout

set_option maxRecDepth 16384

noncomputable section

namespace Cert.KernelIdeal.RegionBn

open Cert.KernelIdeal Cert.KernelIdeal.Gen Idealize.ShloMosaic Idealize.ShloMosaic.TcCoe Idealize.SL.Sem
open Idealize.ShloMosaic.ValueIdx
open Idealize.ShloMosaic.Pipeline (Dat)
open Cert.BnSpec (bn bnAt bn_apply)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- The stored value at entry `(p, q)` of a block: the layer's value of the block's entry and the rows' entries. -/
theorem pay1_apply (x0 : Vec Ideal S2000x256 .f32) (xb xv xm xg xe : Vec Ideal S1x256 .f32) (p : Fin 2000) (q : Fin 256) :
    k1_pay1 (F := Ideal) x0 xb xv xm xg xe (ix2 p q)
      = bnAt (x0 (ix2 p q)) (xb (ix2 (0 : Fin 1) q)) (xm (ix2 (0 : Fin 1) q)) (xv (ix2 (0 : Fin 1) q))
          (xg (ix2 (0 : Fin 1) q)) (xe (ix2 (0 : Fin 1) q)) := by
  unfold k1_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply,
    broadcastTo_1b_ab_apply]
  rfl

/-- The printed index maps over the grid: the activation's and the output's block at point `t` is row block `t`, every
    row operand's block is block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `(p, q)` of the output's block at point `t` is entry `(2000 t + p, q)` of the array. -/
theorem emb_out1 (t : Fin cfg1.N) (p : Fin 2000) (q : Fin 256) (h : 2000 * t.val + p.val < 100000) :
    ((cfg1.win 6).blk t).view.emb (ix2 p q) = (ix2 ⟨2000 * t.val + p.val, h⟩ q : S100000x256.Idx) := by
  obtain ⟨-, -, -, -, -, -, -, -, -, -, -, -, e0, e1⟩ := idx_facts1 t
  funext a
  apply Fin.ext
  match a with
  | ⟨0, _⟩ => show win1_6.index t (0 : Fin 2) * 2000 + 1 * p.val = 2000 * t.val + p.val; rw [e0]; omega
  | ⟨1, _⟩ => show win1_6.index t (1 : Fin 2) * 256 + 1 * q.val = q.val; rw [e1]; omega

/-- Entry `(p, q)` of the activation's block at point `t` is entry `(2000 t + p, q)` of the activation. -/
theorem blk1_a (c : Dev nD) (t : Fin cfg1.N) (p : Fin 2000) (q : Fin 256) (h : 2000 * t.val + p.val < 100000) :
    (iblk1 V c 0 t : Vec Ideal S2000x256 .f32) (ix2 p q)
      = (V c main_v52 : S100000x256.Idx → Elt Ideal .f32) (ix2 ⟨2000 * t.val + p.val, h⟩ q) := by
  obtain ⟨e0, e1, -⟩ := idx_facts1 t
  unfold iblk1
  rw [View.read_apply]
  show V c main_v52 _ = V c main_v52 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * q.val = q.val; rw [e1]; omega

/-- A row operand's block at any point is the row itself. -/
theorem blk1_row1 (c : Dev nD) (t : Fin cfg1.N) (q : Fin 256) :
    (iblk1 V c 1 t : Vec Ideal S1x256 .f32) (ix2 (0 : Fin 1) q)
      = (V c main_v63 : S1x256.Idx → Elt Ideal .f32) (ix2 (0 : Fin 1) q) := by
  obtain ⟨-, -, e0, e1, -⟩ := idx_facts1 t
  unfold iblk1
  rw [View.read_apply]
  show V c main_v63 _ = V c main_v63 _
  congr 1
  funext a
  apply Fin.ext
  match a with
  | ⟨0, _⟩ => show win1_1.index t (0 : Fin 2) * 1 + 1 * (0 : Fin 1).val = (0 : Fin 1).val; rw [e0]; rfl
  | ⟨1, _⟩ => show win1_1.index t (1 : Fin 2) * 256 + 1 * q.val = q.val; rw [e1]; omega

theorem blk1_row2 (c : Dev nD) (t : Fin cfg1.N) (q : Fin 256) :
    (iblk1 V c 2 t : Vec Ideal S1x256 .f32) (ix2 (0 : Fin 1) q)
      = (V c main_v64 : S1x256.Idx → Elt Ideal .f32) (ix2 (0 : Fin 1) q) := by
  obtain ⟨-, -, -, -, e0, e1, -⟩ := idx_facts1 t
  unfold iblk1
  rw [View.read_apply]
  show V c main_v64 _ = V c main_v64 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 256 + 1 * q.val = q.val; rw [e1]; omega

theorem blk1_row3 (c : Dev nD) (t : Fin cfg1.N) (q : Fin 256) :
    (iblk1 V c 3 t : Vec Ideal S1x256 .f32) (ix2 (0 : Fin 1) q)
      = (V c main_v65 : S1x256.Idx → Elt Ideal .f32) (ix2 (0 : Fin 1) q) := by
  obtain ⟨-, -, -, -, -, -, e0, e1, -⟩ := idx_facts1 t
  unfold iblk1
  rw [View.read_apply]
  show V c main_v65 _ = V c main_v65 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 256 + 1 * q.val = q.val; rw [e1]; omega

theorem blk1_row4 (c : Dev nD) (t : Fin cfg1.N) (q : Fin 256) :
    (iblk1 V c 4 t : Vec Ideal S1x256 .f32) (ix2 (0 : Fin 1) q)
      = (V c main_v66 : S1x256.Idx → Elt Ideal .f32) (ix2 (0 : Fin 1) q) := by
  obtain ⟨-, -, -, -, -, -, -, -, e0, e1, -⟩ := idx_facts1 t
  unfold iblk1
  rw [View.read_apply]
  show V c main_v66 _ = V c main_v66 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 256 + 1 * q.val = q.val; rw [e1]; omega

theorem blk1_row5 (c : Dev nD) (t : Fin cfg1.N) (q : Fin 256) :
    (iblk1 V c 5 t : Vec Ideal S1x256 .f32) (ix2 (0 : Fin 1) q)
      = (V c main_v67 : S1x256.Idx → Elt Ideal .f32) (ix2 (0 : Fin 1) q) := by
  obtain ⟨-, -, -, -, -, -, -, -, -, -, e0, e1, -⟩ := idx_facts1 t
  unfold iblk1
  rw [View.read_apply]
  show V c main_v67 _ = V c main_v67 _
  congr 1
  funext a
  apply Fin.ext
  match a with
  | ⟨0, _⟩ => show win1_5.index t (0 : Fin 2) * 1 + 1 * (0 : Fin 1).val = (0 : Fin 1).val; rw [e0]; rfl
  | ⟨1, _⟩ => show win1_5.index t (1 : Fin 2) * 256 + 1 * q.val = q.val; rw [e1]; omega

/-- WHAT POINT `t` WRITES BACK is block `t` of the layer's array of the arrays as the region finds them. -/
theorem flushed1_eq (c : Dev nD) (t : Fin cfg1.N) :
    (dat1 (F := Ideal) V c).flushed 6 t = ((cfg1.win 6).blk t).view.read (Elt Ideal)
      (bn (V c main_v52) (V c main_v63) (V c main_v64) (V c main_v65) (V c main_v66) (V c main_v67)) := by
  show (cfg1.win 6).cut (grid1.coords t) ((dat1 V c).after 6 t) = _
  rw [after1_6]
  unfold out1_6
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hN : cfg1.N = 50 := N_1
  have hp : 2000 * t.val + p.val < 100000 := by have := t.isLt; have := p.isLt; omega
  show k1_pay1 (F := Ideal) (iblk1 V c 0 t) (iblk1 V c 1 t) (iblk1 V c 3 t) (iblk1 V c 2 t) (iblk1 V c 4 t) (iblk1 V c 5 t) (ix2 p q)
    = bn (V c main_v52) (V c main_v63) (V c main_v64) (V c main_v65) (V c main_v66) (V c main_v67) (((cfg1.win 6).blk t).view.emb (ix2 p q))
  rw [pay1_apply, emb_out1 t p q hp, bn_apply, blk1_a V c t p q hp, blk1_row1, blk1_row2, blk1_row3, blk1_row4, blk1_row5]

/-- An index of the array is in point `t`'s block iff each coordinate is in the block's range on its axis. -/
theorem mem_blk1 (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v68).slice (win1_6.rect t)).set ↔ _
  rw [View.set_slice_whole, Rect.mem_set_unit]
  exact Iff.rfl

/-- Row `r` lies in the block of point `r / 2000`: the blocks cover the array. -/
theorem cover1 (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; rw [e0]; omega
  | ⟨1, _⟩ => show win1_6.index t (1 : Fin 2) * 256 ≤ (i 1).val ∧ (i 1).val < win1_6.index t (1 : Fin 2) * 256 + 256; rw [e1]; omega

/-- THE ARRAY after the region: the layer's array of the arrays as the region finds them. -/
theorem region1_out (c : Dev nD) : (dat1 (F := Ideal) V c).arrAt 6 cfg1.N
    = bn (V c main_v52) (V c main_v63) (V c main_v64) (V c main_v65) (V c main_v66) (V c main_v67) :=
  (dat1 (F := Ideal) V c).arrAt_eq_of_cover 6 _ (fun t _ => flushed1_eq V c t) cover1

/-! ## Region 3 -/

/-- The stored value at entry `(p, q)` of a block: the layer's value of the block's entry and the rows' entries. -/
theorem pay3_apply (x0 : Vec Ideal S2000x256 .f32) (xb xv xm xg xe : Vec Ideal S1x256 .f32) (p : Fin 2000) (q : Fin 256) :
    k3_pay1 (F := Ideal) x0 xb xv xm xg xe (ix2 p q)
      = bnAt (x0 (ix2 p q)) (xb (ix2 (0 : Fin 1) q)) (xm (ix2 (0 : Fin 1) q)) (xv (ix2 (0 : Fin 1) q))
          (xg (ix2 (0 : Fin 1) q)) (xe (ix2 (0 : Fin 1) q)) := by
  unfold k3_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply,
    broadcastTo_1b_ab_apply]
  rfl

/-- The printed index maps over the grid: the activation's and the output's block at point `t` is row block `t`, every
    row operand's block is block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry `(p, q)` of the output's block at point `t` is entry `(2000 t + p, q)` of the array. -/
theorem emb_out3 (t : Fin cfg3.N) (p : Fin 2000) (q : Fin 256) (h : 2000 * t.val + p.val < 100000) :
    ((cfg3.win 6).blk t).view.emb (ix2 p q) = (ix2 ⟨2000 * t.val + p.val, h⟩ q : S100000x256.Idx) := by
  obtain ⟨-, -, -, -, -, -, -, -, -, -, -, -, e0, e1⟩ := idx_facts3 t
  funext a
  apply Fin.ext
  match a with
  | ⟨0, _⟩ => show win3_6.index t (0 : Fin 2) * 2000 + 1 * p.val = 2000 * t.val + p.val; rw [e0]; omega
  | ⟨1, _⟩ => show win3_6.index t (1 : Fin 2) * 256 + 1 * q.val = q.val; rw [e1]; omega

/-- Entry `(p, q)` of the activation's block at point `t` is entry `(2000 t + p, q)` of the activation. -/
theorem blk3_a (c : Dev nD) (t : Fin cfg3.N) (p : Fin 2000) (q : Fin 256) (h : 2000 * t.val + p.val < 100000) :
    (iblk3 V c 0 t : Vec Ideal S2000x256 .f32) (ix2 p q)
      = (V c main_v84 : S100000x256.Idx → Elt Ideal .f32) (ix2 ⟨2000 * t.val + p.val, h⟩ q) := by
  obtain ⟨e0, e1, -⟩ := idx_facts3 t
  unfold iblk3
  rw [View.read_apply]
  show V c main_v84 _ = V c main_v84 _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 256 + 1 * q.val = q.val; rw [e1]; omega

/-- A row operand's block at any point is the row itself. -/
theorem blk3_row1 (c : Dev nD) (t : Fin cfg3.N) (q : Fin 256) :
    (iblk3 V c 1 t : Vec Ideal S1x256 .f32) (ix2 (0 : Fin 1) q)
      = (V c main_v95 : S1x256.Idx → Elt Ideal .f32) (ix2 (0 : Fin 1) q) := by
  obtain ⟨-, -, e0, e1, -⟩ := idx_facts3 t
  unfold iblk3
  rw [View.read_apply]
  show V c main_v95 _ = V c main_v95 _
  congr 1
  funext a
  apply Fin.ext
  match a with
  | ⟨0, _⟩ => show win3_1.index t (0 : Fin 2) * 1 + 1 * (0 : Fin 1).val = (0 : Fin 1).val; rw [e0]; rfl
  | ⟨1, _⟩ => show win3_1.index t (1 : Fin 2) * 256 + 1 * q.val = q.val; rw [e1]; omega

theorem blk3_row2 (c : Dev nD) (t : Fin cfg3.N) (q : Fin 256) :
    (iblk3 V c 2 t : Vec Ideal S1x256 .f32) (ix2 (0 : Fin 1) q)
      = (V c main_v96 : S1x256.Idx → Elt Ideal .f32) (ix2 (0 : Fin 1) q) := by
  obtain ⟨-, -, -, -, e0, e1, -⟩ := idx_facts3 t
  unfold iblk3
  rw [View.read_apply]
  show V c main_v96 _ = V c main_v96 _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 256 + 1 * q.val = q.val; rw [e1]; omega

theorem blk3_row3 (c : Dev nD) (t : Fin cfg3.N) (q : Fin 256) :
    (iblk3 V c 3 t : Vec Ideal S1x256 .f32) (ix2 (0 : Fin 1) q)
      = (V c main_v97 : S1x256.Idx → Elt Ideal .f32) (ix2 (0 : Fin 1) q) := by
  obtain ⟨-, -, -, -, -, -, e0, e1, -⟩ := idx_facts3 t
  unfold iblk3
  rw [View.read_apply]
  show V c main_v97 _ = V c main_v97 _
  congr 1
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 256 + 1 * q.val = q.val; rw [e1]; omega

theorem blk3_row4 (c : Dev nD) (t : Fin cfg3.N) (q : Fin 256) :
    (iblk3 V c 4 t : Vec Ideal S1x256 .f32) (ix2 (0 : Fin 1) q)
      = (V c main_v98 : S1x256.Idx → Elt Ideal .f32) (ix2 (0 : Fin 1) q) := by
  obtain ⟨-, -, -, -, -, -, -, -, e0, e1, -⟩ := idx_facts3 t
  unfold iblk3
  rw [View.read_apply]
  show V c main_v98 _ = V c main_v98 _
  congr 1
  funext a
  apply Fin.ext
  match a with
  | ⟨0, _⟩ => show win3_4.index t (0 : Fin 2) * 1 + 1 * (0 : Fin 1).val = (0 : Fin 1).val; rw [e0]; rfl
  | ⟨1, _⟩ => show win3_4.index t (1 : Fin 2) * 256 + 1 * q.val = q.val; rw [e1]; omega

theorem blk3_row5 (c : Dev nD) (t : Fin cfg3.N) (q : Fin 256) :
    (iblk3 V c 5 t : Vec Ideal S1x256 .f32) (ix2 (0 : Fin 1) q)
      = (V c main_v99 : S1x256.Idx → Elt Ideal .f32) (ix2 (0 : Fin 1) q) := by
  obtain ⟨-, -, -, -, -, -, -, -, -, -, e0, e1, -⟩ := idx_facts3 t
  unfold iblk3
  rw [View.read_apply]
  show V c main_v99 _ = V c main_v99 _
  congr 1
  funext a
  apply Fin.ext
  match a with
  | ⟨0, _⟩ => show win3_5.index t (0 : Fin 2) * 1 + 1 * (0 : Fin 1).val = (0 : Fin 1).val; rw [e0]; rfl
  | ⟨1, _⟩ => show win3_5.index t (1 : Fin 2) * 256 + 1 * q.val = q.val; rw [e1]; omega

/-- WHAT POINT `t` WRITES BACK is block `t` of the layer's array of the arrays as the region finds them. -/
theorem flushed3_eq (c : Dev nD) (t : Fin cfg3.N) :
    (dat3 (F := Ideal) V c).flushed 6 t = ((cfg3.win 6).blk t).view.read (Elt Ideal)
      (bn (V c main_v84) (V c main_v95) (V c main_v96) (V c main_v97) (V c main_v98) (V c main_v99)) := by
  show (cfg3.win 6).cut (grid3.coords t) ((dat3 V c).after 6 t) = _
  rw [after3_6]
  unfold out3_6
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hN : cfg3.N = 50 := N_3
  have hp : 2000 * t.val + p.val < 100000 := by have := t.isLt; have := p.isLt; omega
  show k3_pay1 (F := Ideal) (iblk3 V c 0 t) (iblk3 V c 1 t) (iblk3 V c 3 t) (iblk3 V c 2 t) (iblk3 V c 4 t) (iblk3 V c 5 t) (ix2 p q)
    = bn (V c main_v84) (V c main_v95) (V c main_v96) (V c main_v97) (V c main_v98) (V c main_v99) (((cfg3.win 6).blk t).view.emb (ix2 p q))
  rw [pay3_apply, emb_out3 t p q hp, bn_apply, blk3_a V c t p q hp, blk3_row1, blk3_row2, blk3_row3, blk3_row4, blk3_row5]

/-- An index of the array is in point `t`'s block iff each coordinate is in the block's range on its axis. -/
theorem mem_blk3 (t : Fin cfg3.N) (i : S100000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v100).slice (win3_6.rect t)).set ↔ _
  rw [View.set_slice_whole, Rect.mem_set_unit]
  exact Iff.rfl

/-- Row `r` lies in the block of point `r / 2000`: the blocks cover the array. -/
theorem cover3 (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; rw [e0]; omega
  | ⟨1, _⟩ => show win3_6.index t (1 : Fin 2) * 256 ≤ (i 1).val ∧ (i 1).val < win3_6.index t (1 : Fin 2) * 256 + 256; rw [e1]; omega

/-- THE ARRAY after the region: the layer's array of the arrays as the region finds them. -/
theorem region3_out (c : Dev nD) : (dat3 (F := Ideal) V c).arrAt 6 cfg3.N
    = bn (V c main_v84) (V c main_v95) (V c main_v96) (V c main_v97) (V c main_v98) (V c main_v99) :=
  (dat3 (F := Ideal) V c).arrAt_eq_of_cover 6 _ (fun t _ => flushed3_eq V c t) cover3

/-! ## Region 5 -/

/-- The stored value at entry `(p, q)` of a block: the layer's value of the block's entry and the rows' entries. -/
theorem pay5_apply (x0 : Vec Ideal S2000x256 .f32) (xb xv xm xg xe : Vec Ideal S1x256 .f32) (p : Fin 2000) (q : Fin 256) :
    k5_pay1 (F := Ideal) x0 xb xv xm xg xe (ix2 p q)
      = bnAt (x0 (ix2 p q)) (xb (ix2 (0 : Fin 1) q)) (xm (ix2 (0 : Fin 1) q)) (xv (ix2 (0 : Fin 1) q))
          (xg (ix2 (0 : Fin 1) q)) (xe (ix2 (0 : Fin 1) q)) := by
  unfold k5_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply,
    broadcastTo_1b_ab_apply]
  rfl

/-- The printed index maps over the grid: the activation's and the output's block at point `t` is row block `t`, every
    row operand's block is block `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Entry `(p, q)` of the output's block at point `t` is entry `(2000 t + p, q)` of the array. -/
theorem emb_out5 (t : Fin cfg5.N) (p : Fin 2000) (q : Fin 256) (h : 2000 * t.val + p.val < 100000) :
    ((cfg5.win 6).blk t).view.emb (ix2 p q) = (ix2 ⟨2000 * t.val + p.val, h⟩ q : S100000x256.Idx) := by
  obtain ⟨-, -, -, -, -, -, -, -, -, -, -, -, e0, e1⟩ := idx_facts5 t
  funext a
  apply Fin.ext
  match a with
  | ⟨0, _⟩ => show win5_6.index t (0 : Fin 2) * 2000 + 1 * p.val = 2000 * t.val + p.val; rw [e0]; omega
  | ⟨1, _⟩ => show win5_6.index t (1 : Fin 2) * 256 + 1 * q.val = q.val; rw [e1]; omega

/-- Entry `(p, q)` of the activation's block at point `t` is entry `(2000 t + p, q)` of the activation. -/
theorem blk5_a (c : Dev nD) (t : Fin cfg5.N) (p : Fin 2000) (q : Fin 256) (h : 2000 * t.val + p.val < 100000) :
    (iblk5 V c 0 t : Vec Ideal S2000x256 .f32) (ix2 p q)
      = (V c main_v116 : S100000x256.Idx → Elt Ideal .f32) (ix2 ⟨2000 * t.val + p.val, h⟩ q) := by
  obtain ⟨e0, e1, -⟩ := idx_facts5 t
  unfold iblk5
  rw [View.read_apply]
  show V c main_v116 _ = V c main_v116 _
  congr 1
  funext a
  apply Fin.ext
  match a with
  | ⟨0, _⟩ => show win5_0.index t (0 : Fin 2) * 2000 + 1 * p.val = 2000 * t.val + p.val; rw [e0]; omega
  | ⟨1, _⟩ => show win5_0.index t (1 : Fin 2) * 256 + 1 * q.val = q.val; rw [e1]; omega

/-- A row operand's block at any point is the row itself. -/
theorem blk5_row1 (c : Dev nD) (t : Fin cfg5.N) (q : Fin 256) :
    (iblk5 V c 1 t : Vec Ideal S1x256 .f32) (ix2 (0 : Fin 1) q)
      = (V c main_v127 : S1x256.Idx → Elt Ideal .f32) (ix2 (0 : Fin 1) q) := by
  obtain ⟨-, -, e0, e1, -⟩ := idx_facts5 t
  unfold iblk5
  rw [View.read_apply]
  show V c main_v127 _ = V c main_v127 _
  congr 1
  funext a
  apply Fin.ext
  match a with
  | ⟨0, _⟩ => show win5_1.index t (0 : Fin 2) * 1 + 1 * (0 : Fin 1).val = (0 : Fin 1).val; rw [e0]; rfl
  | ⟨1, _⟩ => show win5_1.index t (1 : Fin 2) * 256 + 1 * q.val = q.val; rw [e1]; omega

theorem blk5_row2 (c : Dev nD) (t : Fin cfg5.N) (q : Fin 256) :
    (iblk5 V c 2 t : Vec Ideal S1x256 .f32) (ix2 (0 : Fin 1) q)
      = (V c main_v128 : S1x256.Idx → Elt Ideal .f32) (ix2 (0 : Fin 1) q) := by
  obtain ⟨-, -, -, -, e0, e1, -⟩ := idx_facts5 t
  unfold iblk5
  rw [View.read_apply]
  show V c main_v128 _ = V c main_v128 _
  congr 1
  funext a
  apply Fin.ext
  match a with
  | ⟨0, _⟩ => show win5_2.index t (0 : Fin 2) * 1 + 1 * (0 : Fin 1).val = (0 : Fin 1).val; rw [e0]; rfl
  | ⟨1, _⟩ => show win5_2.index t (1 : Fin 2) * 256 + 1 * q.val = q.val; rw [e1]; omega

theorem blk5_row3 (c : Dev nD) (t : Fin cfg5.N) (q : Fin 256) :
    (iblk5 V c 3 t : Vec Ideal S1x256 .f32) (ix2 (0 : Fin 1) q)
      = (V c main_v129 : S1x256.Idx → Elt Ideal .f32) (ix2 (0 : Fin 1) q) := by
  obtain ⟨-, -, -, -, -, -, e0, e1, -⟩ := idx_facts5 t
  unfold iblk5
  rw [View.read_apply]
  show V c main_v129 _ = V c main_v129 _
  congr 1
  funext a
  apply Fin.ext
  match a with
  | ⟨0, _⟩ => show win5_3.index t (0 : Fin 2) * 1 + 1 * (0 : Fin 1).val = (0 : Fin 1).val; rw [e0]; rfl
  | ⟨1, _⟩ => show win5_3.index t (1 : Fin 2) * 256 + 1 * q.val = q.val; rw [e1]; omega

theorem blk5_row4 (c : Dev nD) (t : Fin cfg5.N) (q : Fin 256) :
    (iblk5 V c 4 t : Vec Ideal S1x256 .f32) (ix2 (0 : Fin 1) q)
      = (V c main_v130 : S1x256.Idx → Elt Ideal .f32) (ix2 (0 : Fin 1) q) := by
  obtain ⟨-, -, -, -, -, -, -, -, e0, e1, -⟩ := idx_facts5 t
  unfold iblk5
  rw [View.read_apply]
  show V c main_v130 _ = V c main_v130 _
  congr 1
  funext a
  apply Fin.ext
  match a with
  | ⟨0, _⟩ => show win5_4.index t (0 : Fin 2) * 1 + 1 * (0 : Fin 1).val = (0 : Fin 1).val; rw [e0]; rfl
  | ⟨1, _⟩ => show win5_4.index t (1 : Fin 2) * 256 + 1 * q.val = q.val; rw [e1]; omega

theorem blk5_row5 (c : Dev nD) (t : Fin cfg5.N) (q : Fin 256) :
    (iblk5 V c 5 t : Vec Ideal S1x256 .f32) (ix2 (0 : Fin 1) q)
      = (V c main_v131 : S1x256.Idx → Elt Ideal .f32) (ix2 (0 : Fin 1) q) := by
  obtain ⟨-, -, -, -, -, -, -, -, -, -, e0, e1, -⟩ := idx_facts5 t
  unfold iblk5
  rw [View.read_apply]
  show V c main_v131 _ = V c main_v131 _
  congr 1
  funext a
  apply Fin.ext
  match a with
  | ⟨0, _⟩ => show win5_5.index t (0 : Fin 2) * 1 + 1 * (0 : Fin 1).val = (0 : Fin 1).val; rw [e0]; rfl
  | ⟨1, _⟩ => show win5_5.index t (1 : Fin 2) * 256 + 1 * q.val = q.val; rw [e1]; omega

/-- WHAT POINT `t` WRITES BACK is block `t` of the layer's array of the arrays as the region finds them. -/
theorem flushed5_eq (c : Dev nD) (t : Fin cfg5.N) :
    (dat5 (F := Ideal) V c).flushed 6 t = ((cfg5.win 6).blk t).view.read (Elt Ideal)
      (bn (V c main_v116) (V c main_v127) (V c main_v128) (V c main_v129) (V c main_v130) (V c main_v131)) := by
  show (cfg5.win 6).cut (grid5.coords t) ((dat5 V c).after 6 t) = _
  rw [after5_6]
  unfold out5_6
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have hN : cfg5.N = 50 := N_5
  have hp : 2000 * t.val + p.val < 100000 := by have := t.isLt; have := p.isLt; omega
  show k5_pay1 (F := Ideal) (iblk5 V c 0 t) (iblk5 V c 1 t) (iblk5 V c 3 t) (iblk5 V c 2 t) (iblk5 V c 4 t) (iblk5 V c 5 t) (ix2 p q)
    = bn (V c main_v116) (V c main_v127) (V c main_v128) (V c main_v129) (V c main_v130) (V c main_v131) (((cfg5.win 6).blk t).view.emb (ix2 p q))
  rw [pay5_apply, emb_out5 t p q hp, bn_apply, blk5_a V c t p q hp, blk5_row1, blk5_row2, blk5_row3, blk5_row4, blk5_row5]

/-- An index of the array is in point `t`'s block iff each coordinate is in the block's range on its axis. -/
theorem mem_blk5 (t : Fin cfg5.N) (i : S100000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v132).slice (win5_6.rect t)).set ↔ _
  rw [View.set_slice_whole, Rect.mem_set_unit]
  exact Iff.rfl

/-- Row `r` lies in the block of point `r / 2000`: the blocks cover the array. -/
theorem cover5 (i : S100000x256.Idx) :
    ∃ t : Fin cfg5.N, (cfg5.win 6).flush t = true ∧ i ∈ ((cfg5.win 6).blk t).view.set := by
  have hi0 : (i 0).val < 100000 := (i 0).isLt
  have hi1 : (i 1).val < 256 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, e0, e1⟩ := idx_facts5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; rw [e0]; omega
  | ⟨1, _⟩ => show win5_6.index t (1 : Fin 2) * 256 ≤ (i 1).val ∧ (i 1).val < win5_6.index t (1 : Fin 2) * 256 + 256; rw [e1]; omega

/-- THE ARRAY after the region: the layer's array of the arrays as the region finds them. -/
theorem region5_out (c : Dev nD) : (dat5 (F := Ideal) V c).arrAt 6 cfg5.N
    = bn (V c main_v116) (V c main_v127) (V c main_v128) (V c main_v129) (V c main_v130) (V c main_v131) :=
  (dat5 (F := Ideal) V c).arrAt_eq_of_cover 6 _ (fun t _ => flushed5_eq V c t) cover5

end Cert.KernelIdeal.RegionBn

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.BnRef.lean ====
/-
  The host's spelling of the layer's pointwise tail is the array `Cert.BnSpec.bn`.

  The host adds the bias, subtracts the running mean, multiplies by `rsqrt (var + ε)` and by the scale, adds the shift
  and takes the maximum with zero, each length-256 vector first set up as a row `[1, 256]` and the row stretched over
  the 100000 rows, the two constants stretched from scalars. Read at an entry `(p, q)` every stretched operand is its
  vector's entry `q`; a vector reshaped to a row `[1, 256]` has the same entries; so the two arrays agree entry by entry.
-/
import proofs.«122568_j8942121910543_1_alg».proof.Proof.Gen.ReferenceIdeal
import proofs.«122568_j8942121910543_1_alg».proof.Proof.Gen.KernelIdeal
import proofs.«122568_j8942121910543_1_alg».proof.Proof.BnSpec
import proofs.«122568_j8942121910543_1_alg».proof.Proof.LibColumn
import Idealize.ShloMosaic.Lib.ValueIdx
import Idealize.ShloMosaic.Lib.ValueLayout

namespace Cert.BnSpec

open Idealize.ShloMosaic Idealize.ShloMosaic.ValueIdx

/-- The host's reciprocal square root read at an index. -/
theorem hostRsqrt_apply {s : Shape} {φ : FTy} (x : FVec Ideal s φ) (i : s.Idx) :
    Host.rsqrt (F := Ideal) x i = Ideal.rsqrt (x i) := rfl

/-- The host's layer tail is `bn` of the activation and of the five vectors reshaped to rows. -/
theorem refBn_eq (a : FVec Ideal Cert.ReferenceIdeal.S100000x256 .f32) (b mu var g be : FVec Ideal Cert.ReferenceIdeal.S256 .f32) :
    maximumf (addf (mulf (mulf (subf (addf a (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 b))) (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 mu))) (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 (Host.rsqrt (addf var (broadcastInDim Cert.ReferenceIdeal.S256 ![] Cert.ReferenceIdeal.Facts₀.bcast_S_S256 (constant (F := Ideal) Cert.ReferenceIdeal.S_ .f32 0x3727C5AC#32))))))) (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 g))) (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 be))) (broadcastInDim Cert.ReferenceIdeal.S100000x256 ![] Cert.ReferenceIdeal.Facts₀.bcast_S_S100000x256 (constant (F := Ideal) Cert.ReferenceIdeal.S_ .f32 0x00000000#32))
      = bn a (shapeCast Cert.KernelIdeal.S1x256 b Cert.KernelIdeal.Facts₀.shapeCasts_S256_S1x256) (shapeCast Cert.KernelIdeal.S1x256 mu Cert.KernelIdeal.Facts₀.shapeCasts_S256_S1x256) (shapeCast Cert.KernelIdeal.S1x256 var Cert.KernelIdeal.Facts₀.shapeCasts_S256_S1x256) (shapeCast Cert.KernelIdeal.S1x256 g Cert.KernelIdeal.Facts₀.shapeCasts_S256_S1x256) (shapeCast Cert.KernelIdeal.S1x256 be Cert.KernelIdeal.Facts₀.shapeCasts_S256_S1x256) := by
  funext i
  obtain ⟨p, q, rfl⟩ : ∃ (p : Fin 100000) (q : Fin 256), i = ix2 p q := ⟨i 0, i 1, eq_ix2 i⟩
  rw [bn_apply]
  rw [shapeCast_a_1a_apply, shapeCast_a_1a_apply, shapeCast_a_1a_apply, shapeCast_a_1a_apply, shapeCast_a_1a_apply]
  rw [maximumf_apply, addf_apply, mulf_apply, mulf_apply, subf_apply, addf_apply]
  rw [Cert.LibColumn.bcastInDim_1b_ab_apply, Cert.LibColumn.bcastInDim_1b_ab_apply, Cert.LibColumn.bcastInDim_1b_ab_apply,
    Cert.LibColumn.bcastInDim_1b_ab_apply, Cert.LibColumn.bcastInDim_1b_ab_apply]
  rw [Cert.LibColumn.bcastInDim_b_1b_apply, Cert.LibColumn.bcastInDim_b_1b_apply, Cert.LibColumn.bcastInDim_b_1b_apply,
    Cert.LibColumn.bcastInDim_b_1b_apply, Cert.LibColumn.bcastInDim_b_1b_apply]
  rw [hostRsqrt_apply, addf_apply]
  rw [Cert.LibColumn.bcastInDim_scalar_apply _ _ _ ix0, Cert.LibColumn.bcastInDim_scalar_apply _ _ _ ix0]
  rw [constant_apply, constant_apply]
  rfl

end Cert.BnSpec
-- ==== Proof.Net.lean ====
/-
  The kernel program's result is the network.

  The program's buffer contents are followed boundary by boundary: before the first launch the host computes the edge
  endpoints, the edge weights and the input features; each layer is a launch that multiplies the features by the
  layer's weights (a dense product computed 2000 rows at a time: the whole product), the host's aggregation over the
  edges, and a launch that adds the bias, normalises and rectifies entry by entry (the reference's spelling of the same
  function); after the third layer the host takes each graph's mean and the last launch projects it. Every stage's
  operands are the previous stage's results or buffers that kept their contents since the first launch, so the result
  array ends at the network of the argument arrays.
-/
import proofs.«122568_j8942121910543_1_alg».proof.Proof.Gen.KernelIdeal.Frame
import proofs.«122568_j8942121910543_1_alg».proof.Proof.Spec
import proofs.«122568_j8942121910543_1_alg».proof.Proof.Keep
import proofs.«122568_j8942121910543_1_alg».proof.Proof.Prep
import proofs.«122568_j8942121910543_1_alg».proof.Proof.RegionDot
import proofs.«122568_j8942121910543_1_alg».proof.Proof.RegionDot6
import proofs.«122568_j8942121910543_1_alg».proof.Proof.RegionBn
import proofs.«122568_j8942121910543_1_alg».proof.Proof.BnRef
import Idealize.ShloMosaic.Lib.StableHlo.Run
import Idealize.ShloMosaic.PureOps.Ideal

set_option maxRecDepth 16384
set_option maxHeartbeats 4000000

noncomputable section

namespace Cert.KernelIdeal.Net

open Cert.KernelIdeal Cert.KernelIdeal.Gen Cert.KernelIdeal.Keep Cert.KernelIdeal.Prep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the later stages read back -/
theorem W4_v5 (c : Dev nD) : (W4 m ρ c (Proc.devRef .tc main_v5)) = Cert.Spec.srcIdx (F := Ideal) (m ((c.tc : Thread nD τ).loc main_arg1)) :=
  (at4 m ρ c main_v5 (Or.inl rfl)).trans (W3_v5 m ρ c)
theorem W4_v6 (c : Dev nD) : (W4 m ρ c (Proc.devRef .tc main_v6)) = Cert.Spec.dstIdx (F := Ideal) (m ((c.tc : Thread nD τ).loc main_arg1)) :=
  (at4 m ρ c main_v6 (Or.inr (Or.inl rfl))).trans (W3_v6 m ρ c)
theorem W4_v29 (c : Dev nD) : (W4 m ρ c (Proc.devRef .tc main_v29)) = Cert.Spec.nrm (F := Ideal) (m ((c.tc : Thread nD τ).loc main_arg1)) :=
  (at4 m ρ c main_v29 (Or.inr (Or.inr (Or.inl rfl)))).trans (W3_v29 m ρ c)
theorem W4_arg5 (c : Dev nD) : (W4 m ρ c (Proc.devRef .tc main_arg5)) = m ((c.tc : Thread nD τ).loc main_arg5) :=
  (at4 m ρ c main_arg5 (Or.inr (Or.inr (Or.inr (Or.inr (Or.inr (Or.inl rfl))))))).trans (W3_arg m ρ c main_arg5 (Or.inr (Or.inr (Or.inl rfl))))
theorem W4_arg6 (c : Dev nD) : (W4 m ρ c (Proc.devRef .tc main_arg6)) = m ((c.tc : Thread nD τ).loc main_arg6) :=
  (at4 m ρ c main_arg6 (Or.inr (Or.inr (Or.inr (Or.inr (Or.inr (Or.inr (Or.inl rfl)))))))).trans (W3_arg m ρ c main_arg6 (Or.inr (Or.inr (Or.inr (Or.inl rfl)))))
theorem W4_arg7 (c : Dev nD) : (W4 m ρ c (Proc.devRef .tc main_arg7)) = m ((c.tc : Thread nD τ).loc main_arg7) :=
  (at4 m ρ c main_arg7 (Or.inr (Or.inr (Or.inr (Or.inr (Or.inr (Or.inr (Or.inr (Or.inl rfl))))))))).trans (W3_arg m ρ c main_arg7 (Or.inr (Or.inr (Or.inr (Or.inr (Or.inl rfl))))))
theorem W4_arg8 (c : Dev nD) : (W4 m ρ c (Proc.devRef .tc main_arg8)) = m ((c.tc : Thread nD τ).loc main_arg8) :=
  (at4 m ρ c main_arg8 (Or.inr (Or.inr (Or.inr (Or.inr (Or.inr (Or.inr (Or.inr (Or.inr (Or.inl rfl)))))))))).trans (W3_arg m ρ c main_arg8 (Or.inr (Or.inr (Or.inr (Or.inr (Or.inr (Or.inl rfl)))))))
theorem W4_arg9 (c : Dev nD) : (W4 m ρ c (Proc.devRef .tc main_arg9)) = m ((c.tc : Thread nD τ).loc main_arg9) :=
  (at4 m ρ c main_arg9 (Or.inr (Or.inr (Or.inr (Or.inr (Or.inr (Or.inr (Or.inr (Or.inr (Or.inr (Or.inl rfl))))))))))).trans (W3_arg m ρ c main_arg9 (Or.inr (Or.inr (Or.inr (Or.inr (Or.inr (Or.inr (Or.inl rfl))))))))
theorem W8_v5 (c : Dev nD) : (W8 m ρ c (Proc.devRef .tc main_v5)) = Cert.Spec.srcIdx (F := Ideal) (m ((c.tc : Thread nD τ).loc main_arg1)) :=
  (at8 m ρ c main_v5 (Or.inl rfl)).trans (W3_v5 m ρ c)
theorem W8_v6 (c : Dev nD) : (W8 m ρ c (Proc.devRef .tc main_v6)) = Cert.Spec.dstIdx (F := Ideal) (m ((c.tc : Thread nD τ).loc main_arg1)) :=
  (at8 m ρ c main_v6 (Or.inr (Or.inl rfl))).trans (W3_v6 m ρ c)
theorem W8_v29 (c : Dev nD) : (W8 m ρ c (Proc.devRef .tc main_v29)) = Cert.Spec.nrm (F := Ideal) (m ((c.tc : Thread nD τ).loc main_arg1)) :=
  (at8 m ρ c main_v29 (Or.inr (Or.inr (Or.inl rfl)))).trans (W3_v29 m ρ c)
theorem W8_arg5 (c : Dev nD) : (W8 m ρ c (Proc.devRef .tc main_arg5)) = m ((c.tc : Thread nD τ).loc main_arg5) :=
  (at8 m ρ c main_arg5 (Or.inr (Or.inr (Or.inr (Or.inr (Or.inr (Or.inl rfl))))))).trans (W3_arg m ρ c main_arg5 (Or.inr (Or.inr (Or.inl rfl))))
theorem W8_arg6 (c : Dev nD) : (W8 m ρ c (Proc.devRef .tc main_arg6)) = m ((c.tc : Thread nD τ).loc main_arg6) :=
  (at8 m ρ c main_arg6 (Or.inr (Or.inr (Or.inr (Or.inr (Or.inr (Or.inr (Or.inl rfl)))))))).trans (W3_arg m ρ c main_arg6 (Or.inr (Or.inr (Or.inr (Or.inl rfl)))))
theorem W8_arg7 (c : Dev nD) : (W8 m ρ c (Proc.devRef .tc main_arg7)) = m ((c.tc : Thread nD τ).loc main_arg7) :=
  (at8 m ρ c main_arg7 (Or.inr (Or.inr (Or.inr (Or.inr (Or.inr (Or.inr (Or.inr (Or.inl rfl))))))))).trans (W3_arg m ρ c main_arg7 (Or.inr (Or.inr (Or.inr (Or.inr (Or.inl rfl))))))
theorem W8_arg8 (c : Dev nD) : (W8 m ρ c (Proc.devRef .tc main_arg8)) = m ((c.tc : Thread nD τ).loc main_arg8) :=
  (at8 m ρ c main_arg8 (Or.inr (Or.inr (Or.inr (Or.inr (Or.inr (Or.inr (Or.inr (Or.inr (Or.inl rfl)))))))))).trans (W3_arg m ρ c main_arg8 (Or.inr (Or.inr (Or.inr (Or.inr (Or.inr (Or.inl rfl)))))))
theorem W8_arg9 (c : Dev nD) : (W8 m ρ c (Proc.devRef .tc main_arg9)) = m ((c.tc : Thread nD τ).loc main_arg9) :=
  (at8 m ρ c main_arg9 (Or.inr (Or.inr (Or.inr (Or.inr (Or.inr (Or.inr (Or.inr (Or.inr (Or.inr (Or.inl rfl))))))))))).trans (W3_arg m ρ c main_arg9 (Or.inr (Or.inr (Or.inr (Or.inr (Or.inr (Or.inr (Or.inl rfl))))))))
theorem W12_v5 (c : Dev nD) : (W12 m ρ c (Proc.devRef .tc main_v5)) = Cert.Spec.srcIdx (F := Ideal) (m ((c.tc : Thread nD τ).loc main_arg1)) :=
  (at12 m ρ c main_v5 (Or.inl rfl)).trans (W3_v5 m ρ c)
theorem W12_v6 (c : Dev nD) : (W12 m ρ c (Proc.devRef .tc main_v6)) = Cert.Spec.dstIdx (F := Ideal) (m ((c.tc : Thread nD τ).loc main_arg1)) :=
  (at12 m ρ c main_v6 (Or.inr (Or.inl rfl))).trans (W3_v6 m ρ c)
theorem W12_v29 (c : Dev nD) : (W12 m ρ c (Proc.devRef .tc main_v29)) = Cert.Spec.nrm (F := Ideal) (m ((c.tc : Thread nD τ).loc main_arg1)) :=
  (at12 m ρ c main_v29 (Or.inr (Or.inr (Or.inl rfl)))).trans (W3_v29 m ρ c)
theorem W12_arg5 (c : Dev nD) : (W12 m ρ c (Proc.devRef .tc main_arg5)) = m ((c.tc : Thread nD τ).loc main_arg5) :=
  (at12 m ρ c main_arg5 (Or.inr (Or.inr (Or.inr (Or.inr (Or.inr (Or.inl rfl))))))).trans (W3_arg m ρ c main_arg5 (Or.inr (Or.inr (Or.inl rfl))))
theorem W12_arg6 (c : Dev nD) : (W12 m ρ c (Proc.devRef .tc main_arg6)) = m ((c.tc : Thread nD τ).loc main_arg6) :=
  (at12 m ρ c main_arg6 (Or.inr (Or.inr (Or.inr (Or.inr (Or.inr (Or.inr (Or.inl rfl)))))))).trans (W3_arg m ρ c main_arg6 (Or.inr (Or.inr (Or.inr (Or.inl rfl)))))
theorem W12_arg7 (c : Dev nD) : (W12 m ρ c (Proc.devRef .tc main_arg7)) = m ((c.tc : Thread nD τ).loc main_arg7) :=
  (at12 m ρ c main_arg7 (Or.inr (Or.inr (Or.inr (Or.inr (Or.inr (Or.inr (Or.inr (Or.inl rfl))))))))).trans (W3_arg m ρ c main_arg7 (Or.inr (Or.inr (Or.inr (Or.inr (Or.inl rfl))))))
theorem W12_arg8 (c : Dev nD) : (W12 m ρ c (Proc.devRef .tc main_arg8)) = m ((c.tc : Thread nD τ).loc main_arg8) :=
  (at12 m ρ c main_arg8 (Or.inr (Or.inr (Or.inr (Or.inr (Or.inr (Or.inr (Or.inr (Or.inr (Or.inl rfl)))))))))).trans (W3_arg m ρ c main_arg8 (Or.inr (Or.inr (Or.inr (Or.inr (Or.inr (Or.inl rfl)))))))
theorem W12_arg9 (c : Dev nD) : (W12 m ρ c (Proc.devRef .tc main_arg9)) = m ((c.tc : Thread nD τ).loc main_arg9) :=
  (at12 m ρ c main_arg9 (Or.inr (Or.inr (Or.inr (Or.inr (Or.inr (Or.inr (Or.inr (Or.inr (Or.inr (Or.inl rfl))))))))))).trans (W3_arg m ρ c main_arg9 (Or.inr (Or.inr (Or.inr (Or.inr (Or.inr (Or.inr (Or.inl rfl))))))))
theorem W6_arg4 (c : Dev nD) : (W6 m ρ c (Proc.devRef .tc main_arg4)) = m ((c.tc : Thread nD τ).loc main_arg4) :=
  (at6 m ρ c main_arg4 (Or.inr (Or.inr (Or.inr (Or.inr (Or.inl rfl)))))).trans (W3_arg m ρ c main_arg4 (Or.inr (Or.inl rfl)))
theorem W10_arg4 (c : Dev nD) : (W10 m ρ c (Proc.devRef .tc main_arg4)) = m ((c.tc : Thread nD τ).loc main_arg4) :=
  (at10 m ρ c main_arg4 (Or.inr (Or.inr (Or.inr (Or.inr (Or.inl rfl)))))).trans (W3_arg m ρ c main_arg4 (Or.inr (Or.inl rfl)))
theorem W14_arg2 (c : Dev nD) : (W14 m ρ c (Proc.devRef .tc main_arg2)) = m ((c.tc : Thread nD τ).loc main_arg2) :=
  (at14 m ρ c main_arg2 (Or.inr (Or.inr (Or.inr (Or.inl rfl))))).trans (W3_arg m ρ c main_arg2 (Or.inl rfl))
theorem W14_arg11 (c : Dev nD) : (W14 m ρ c (Proc.devRef .tc main_arg11)) = m ((c.tc : Thread nD τ).loc main_arg11) :=
  (at14 m ρ c main_arg11 (Or.inr (Or.inr (Or.inr (Or.inr (Or.inr (Or.inr (Or.inr (Or.inr (Or.inr (Or.inr (Or.inr (rfl))))))))))))).trans (W3_arg m ρ c main_arg11 (Or.inr (Or.inr (Or.inr (Or.inr (Or.inr (Or.inr (Or.inr (Or.inr (rfl))))))))))
theorem W14_arg10 (c : Dev nD) : (W14 m ρ c (Proc.devRef .tc main_arg10)) = m ((c.tc : Thread nD τ).loc main_arg10) :=
  (at14 m ρ c main_arg10 (Or.inr (Or.inr (Or.inr (Or.inr (Or.inr (Or.inr (Or.inr (Or.inr (Or.inr (Or.inr (Or.inl rfl)))))))))))).trans (W3_arg m ρ c main_arg10 (Or.inr (Or.inr (Or.inr (Or.inr (Or.inr (Or.inr (Or.inr (Or.inl rfl)))))))))

/-! ## Layer 1 -/

/-- The launch's product: computed 2000 rows at a time, it is the whole product of the features entering the layer
    with the layer's weights. -/
theorem W4_v39 (c : Dev nD) : (W4 m ρ c (Proc.devRef .tc main_v39)) = Cert.Spec.dot (F := Ideal) (W3 m ρ c (Proc.devRef .tc main_v36)) (W3 m ρ c (Proc.devRef .tc main_v38)) :=
  (W4_arr m ρ c 2).trans (Cert.KernelIdeal.RegionDot.region0_out (V3 m ρ) c)
/-- The host's aggregation over the edges. -/
theorem W5_v52 (c : Dev nD) : (W5 m ρ c (Proc.devRef .tc main_v52)) = Cert.Spec.agg (F := Ideal) (W4 m ρ c (Proc.devRef .tc main_v39)) (W4 m ρ c (Proc.devRef .tc main_v5)) (W4 m ρ c (Proc.devRef .tc main_v6)) (W4 m ρ c (Proc.devRef .tc main_v29)) := by
  show StableHlo.after hostOps1 (W4 m ρ c) (Proc.devRef .tc main_v52) = _
  after_results_simp
  rfl
theorem W5_v63 (c : Dev nD) : (W5 m ρ c (Proc.devRef .tc main_v63)) = shapeCast S1x256 (Cert.Spec.vec0 (F := Ideal) (W4 m ρ c (Proc.devRef .tc main_arg5))) shapeCasts_S256_S1x256 := by
  show StableHlo.after hostOps1 (W4 m ρ c) (Proc.devRef .tc main_v63) = _
  after_results_simp
  rfl
theorem W5_v64 (c : Dev nD) : (W5 m ρ c (Proc.devRef .tc main_v64)) = shapeCast S1x256 (Cert.Spec.vec0 (F := Ideal) (W4 m ρ c (Proc.devRef .tc main_arg8))) shapeCasts_S256_S1x256 := by
  show StableHlo.after hostOps1 (W4 m ρ c) (Proc.devRef .tc main_v64) = _
  after_results_simp
  rfl
theorem W5_v65 (c : Dev nD) : (W5 m ρ c (Proc.devRef .tc main_v65)) = shapeCast S1x256 (Cert.Spec.vec0 (F := Ideal) (W4 m ρ c (Proc.devRef .tc main_arg9))) shapeCasts_S256_S1x256 := by
  show StableHlo.after hostOps1 (W4 m ρ c) (Proc.devRef .tc main_v65) = _
  after_results_simp
  rfl
theorem W5_v66 (c : Dev nD) : (W5 m ρ c (Proc.devRef .tc main_v66)) = shapeCast S1x256 (Cert.Spec.vec0 (F := Ideal) (W4 m ρ c (Proc.devRef .tc main_arg6))) shapeCasts_S256_S1x256 := by
  show StableHlo.after hostOps1 (W4 m ρ c) (Proc.devRef .tc main_v66) = _
  after_results_simp
  rfl
theorem W5_v67 (c : Dev nD) : (W5 m ρ c (Proc.devRef .tc main_v67)) = shapeCast S1x256 (Cert.Spec.vec0 (F := Ideal) (W4 m ρ c (Proc.devRef .tc main_arg7))) shapeCasts_S256_S1x256 := by
  show StableHlo.after hostOps1 (W4 m ρ c) (Proc.devRef .tc main_v67) = _
  after_results_simp
  rfl
/-- The second launch of the layer: bias, normalisation and rectifier entry by entry, which is the reference's
    spelling of the same function of the aggregated product and the layer's five parameter vectors. -/
theorem W6_v68 (c : Dev nD) : (W6 m ρ c (Proc.devRef .tc main_v68)) = Cert.Spec.layer (F := Ideal) (W5 m ρ c (Proc.devRef .tc main_v52)) (Cert.Spec.vec0 (F := Ideal) (W4 m ρ c (Proc.devRef .tc main_arg5))) (Cert.Spec.vec0 (F := Ideal) (W4 m ρ c (Proc.devRef .tc main_arg8))) (Cert.Spec.vec0 (F := Ideal) (W4 m ρ c (Proc.devRef .tc main_arg9))) (Cert.Spec.vec0 (F := Ideal) (W4 m ρ c (Proc.devRef .tc main_arg6))) (Cert.Spec.vec0 (F := Ideal) (W4 m ρ c (Proc.devRef .tc main_arg7))) := by
  refine (W6_arr m ρ c 6).trans ((Cert.KernelIdeal.RegionBn.region1_out (V5 m ρ) c).trans ?_)
  show Cert.BnSpec.bn (W5 m ρ c (Proc.devRef .tc main_v52)) (W5 m ρ c (Proc.devRef .tc main_v63)) (W5 m ρ c (Proc.devRef .tc main_v64)) (W5 m ρ c (Proc.devRef .tc main_v65)) (W5 m ρ c (Proc.devRef .tc main_v66)) (W5 m ρ c (Proc.devRef .tc main_v67)) = _
  rw [W5_v63 m ρ c, W5_v64 m ρ c, W5_v65 m ρ c, W5_v66 m ρ c, W5_v67 m ρ c]
  exact (Cert.BnSpec.refBn_eq _ _ _ _ _ _).symm
/-- The features after layer 1, as the network's function of the argument arrays. -/
theorem x1_eq (c : Dev nD) : (W6 m ρ c (Proc.devRef .tc main_v68)) = Cert.Spec.x1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W6_v68 m ρ c, W5_v52 m ρ c, W4_v39 m ρ c, W3_v36 m ρ c, W3_v38 m ρ c,
    W4_v5 m ρ c, W4_v6 m ρ c, W4_v29 m ρ c, W4_arg5 m ρ c, W4_arg8 m ρ c, W4_arg9 m ρ c, W4_arg6 m ρ c, W4_arg7 m ρ c]
  rfl
/-- The next product's operands: the layer's features, unchanged, and the next layer's weights. -/
theorem in1_x (c : Dev nD) : (W7 m ρ c (Proc.devRef .tc main_v68)) = Cert.Spec.x1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (v68_step7 m ρ c).trans (x1_eq m ρ c)
theorem in1_w (c : Dev nD) : (W7 m ρ c (Proc.devRef .tc main_v70)) = Cert.Spec.wslice1 (F := Ideal) (m ((c.tc : Thread nD τ).loc main_arg4)) := by
  have e : (W7 m ρ c (Proc.devRef .tc main_v70)) = Cert.Spec.wslice1 (F := Ideal) (W6 m ρ c (Proc.devRef .tc main_arg4)) := by
    show StableHlo.after hostOps2 (W6 m ρ c) (Proc.devRef .tc main_v70) = _
    after_results_simp
    rfl
  rw [e, W6_arg4 m ρ c]

/-! ## Layer 2 -/

/-- The launch's product: computed 2000 rows at a time, it is the whole product of the features entering the layer
    with the layer's weights. -/
theorem W8_v71 (c : Dev nD) : (W8 m ρ c (Proc.devRef .tc main_v71)) = Cert.Spec.dot (F := Ideal) (W7 m ρ c (Proc.devRef .tc main_v68)) (W7 m ρ c (Proc.devRef .tc main_v70)) :=
  (W8_arr m ρ c 2).trans (Cert.KernelIdeal.RegionDot.region2_out (V7 m ρ) c)
/-- The host's aggregation over the edges. -/
theorem W9_v84 (c : Dev nD) : (W9 m ρ c (Proc.devRef .tc main_v84)) = Cert.Spec.agg (F := Ideal) (W8 m ρ c (Proc.devRef .tc main_v71)) (W8 m ρ c (Proc.devRef .tc main_v5)) (W8 m ρ c (Proc.devRef .tc main_v6)) (W8 m ρ c (Proc.devRef .tc main_v29)) := by
  show StableHlo.after hostOps3 (W8 m ρ c) (Proc.devRef .tc main_v84) = _
  after_results_simp
  rfl
theorem W9_v95 (c : Dev nD) : (W9 m ρ c (Proc.devRef .tc main_v95)) = shapeCast S1x256 (Cert.Spec.vec1 (F := Ideal) (W8 m ρ c (Proc.devRef .tc main_arg5))) shapeCasts_S256_S1x256 := by
  show StableHlo.after hostOps3 (W8 m ρ c) (Proc.devRef .tc main_v95) = _
  after_results_simp
  rfl
theorem W9_v96 (c : Dev nD) : (W9 m ρ c (Proc.devRef .tc main_v96)) = shapeCast S1x256 (Cert.Spec.vec1 (F := Ideal) (W8 m ρ c (Proc.devRef .tc main_arg8))) shapeCasts_S256_S1x256 := by
  show StableHlo.after hostOps3 (W8 m ρ c) (Proc.devRef .tc main_v96) = _
  after_results_simp
  rfl
theorem W9_v97 (c : Dev nD) : (W9 m ρ c (Proc.devRef .tc main_v97)) = shapeCast S1x256 (Cert.Spec.vec1 (F := Ideal) (W8 m ρ c (Proc.devRef .tc main_arg9))) shapeCasts_S256_S1x256 := by
  show StableHlo.after hostOps3 (W8 m ρ c) (Proc.devRef .tc main_v97) = _
  after_results_simp
  rfl
theorem W9_v98 (c : Dev nD) : (W9 m ρ c (Proc.devRef .tc main_v98)) = shapeCast S1x256 (Cert.Spec.vec1 (F := Ideal) (W8 m ρ c (Proc.devRef .tc main_arg6))) shapeCasts_S256_S1x256 := by
  show StableHlo.after hostOps3 (W8 m ρ c) (Proc.devRef .tc main_v98) = _
  after_results_simp
  rfl
theorem W9_v99 (c : Dev nD) : (W9 m ρ c (Proc.devRef .tc main_v99)) = shapeCast S1x256 (Cert.Spec.vec1 (F := Ideal) (W8 m ρ c (Proc.devRef .tc main_arg7))) shapeCasts_S256_S1x256 := by
  show StableHlo.after hostOps3 (W8 m ρ c) (Proc.devRef .tc main_v99) = _
  after_results_simp
  rfl
/-- The second launch of the layer: bias, normalisation and rectifier entry by entry, which is the reference's
    spelling of the same function of the aggregated product and the layer's five parameter vectors. -/
theorem W10_v100 (c : Dev nD) : (W10 m ρ c (Proc.devRef .tc main_v100)) = Cert.Spec.layer (F := Ideal) (W9 m ρ c (Proc.devRef .tc main_v84)) (Cert.Spec.vec1 (F := Ideal) (W8 m ρ c (Proc.devRef .tc main_arg5))) (Cert.Spec.vec1 (F := Ideal) (W8 m ρ c (Proc.devRef .tc main_arg8))) (Cert.Spec.vec1 (F := Ideal) (W8 m ρ c (Proc.devRef .tc main_arg9))) (Cert.Spec.vec1 (F := Ideal) (W8 m ρ c (Proc.devRef .tc main_arg6))) (Cert.Spec.vec1 (F := Ideal) (W8 m ρ c (Proc.devRef .tc main_arg7))) := by
  refine (W10_arr m ρ c 6).trans ((Cert.KernelIdeal.RegionBn.region3_out (V9 m ρ) c).trans ?_)
  show Cert.BnSpec.bn (W9 m ρ c (Proc.devRef .tc main_v84)) (W9 m ρ c (Proc.devRef .tc main_v95)) (W9 m ρ c (Proc.devRef .tc main_v96)) (W9 m ρ c (Proc.devRef .tc main_v97)) (W9 m ρ c (Proc.devRef .tc main_v98)) (W9 m ρ c (Proc.devRef .tc main_v99)) = _
  rw [W9_v95 m ρ c, W9_v96 m ρ c, W9_v97 m ρ c, W9_v98 m ρ c, W9_v99 m ρ c]
  exact (Cert.BnSpec.refBn_eq _ _ _ _ _ _).symm
/-- The features after layer 2, as the network's function of the argument arrays. -/
theorem x2_eq (c : Dev nD) : (W10 m ρ c (Proc.devRef .tc main_v100)) = Cert.Spec.x2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W10_v100 m ρ c, W9_v84 m ρ c, W8_v71 m ρ c, in1_x m ρ c, in1_w m ρ c,
    W8_v5 m ρ c, W8_v6 m ρ c, W8_v29 m ρ c, W8_arg5 m ρ c, W8_arg8 m ρ c, W8_arg9 m ρ c, W8_arg6 m ρ c, W8_arg7 m ρ c]
  rfl
/-- The next product's operands: the layer's features, unchanged, and the next layer's weights. -/
theorem in2_x (c : Dev nD) : (W11 m ρ c (Proc.devRef .tc main_v100)) = Cert.Spec.x2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (v100_step11 m ρ c).trans (x2_eq m ρ c)
theorem in2_w (c : Dev nD) : (W11 m ρ c (Proc.devRef .tc main_v102)) = Cert.Spec.wslice2 (F := Ideal) (m ((c.tc : Thread nD τ).loc main_arg4)) := by
  have e : (W11 m ρ c (Proc.devRef .tc main_v102)) = Cert.Spec.wslice2 (F := Ideal) (W10 m ρ c (Proc.devRef .tc main_arg4)) := by
    show StableHlo.after hostOps4 (W10 m ρ c) (Proc.devRef .tc main_v102) = _
    after_results_simp
    rfl
  rw [e, W10_arg4 m ρ c]

/-! ## Layer 3 -/

/-- The launch's product: computed 2000 rows at a time, it is the whole product of the features entering the layer
    with the layer's weights. -/
theorem W12_v103 (c : Dev nD) : (W12 m ρ c (Proc.devRef .tc main_v103)) = Cert.Spec.dot (F := Ideal) (W11 m ρ c (Proc.devRef .tc main_v100)) (W11 m ρ c (Proc.devRef .tc main_v102)) :=
  (W12_arr m ρ c 2).trans (Cert.KernelIdeal.RegionDot.region4_out (V11 m ρ) c)
/-- The host's aggregation over the edges. -/
theorem W13_v116 (c : Dev nD) : (W13 m ρ c (Proc.devRef .tc main_v116)) = Cert.Spec.agg (F := Ideal) (W12 m ρ c (Proc.devRef .tc main_v103)) (W12 m ρ c (Proc.devRef .tc main_v5)) (W12 m ρ c (Proc.devRef .tc main_v6)) (W12 m ρ c (Proc.devRef .tc main_v29)) := by
  show StableHlo.after hostOps5 (W12 m ρ c) (Proc.devRef .tc main_v116) = _
  after_results_simp
  rfl
theorem W13_v127 (c : Dev nD) : (W13 m ρ c (Proc.devRef .tc main_v127)) = shapeCast S1x256 (Cert.Spec.vec2 (F := Ideal) (W12 m ρ c (Proc.devRef .tc main_arg5))) shapeCasts_S256_S1x256 := by
  show StableHlo.after hostOps5 (W12 m ρ c) (Proc.devRef .tc main_v127) = _
  after_results_simp
  rfl
theorem W13_v128 (c : Dev nD) : (W13 m ρ c (Proc.devRef .tc main_v128)) = shapeCast S1x256 (Cert.Spec.vec2 (F := Ideal) (W12 m ρ c (Proc.devRef .tc main_arg8))) shapeCasts_S256_S1x256 := by
  show StableHlo.after hostOps5 (W12 m ρ c) (Proc.devRef .tc main_v128) = _
  after_results_simp
  rfl
theorem W13_v129 (c : Dev nD) : (W13 m ρ c (Proc.devRef .tc main_v129)) = shapeCast S1x256 (Cert.Spec.vec2 (F := Ideal) (W12 m ρ c (Proc.devRef .tc main_arg9))) shapeCasts_S256_S1x256 := by
  show StableHlo.after hostOps5 (W12 m ρ c) (Proc.devRef .tc main_v129) = _
  after_results_simp
  rfl
theorem W13_v130 (c : Dev nD) : (W13 m ρ c (Proc.devRef .tc main_v130)) = shapeCast S1x256 (Cert.Spec.vec2 (F := Ideal) (W12 m ρ c (Proc.devRef .tc main_arg6))) shapeCasts_S256_S1x256 := by
  show StableHlo.after hostOps5 (W12 m ρ c) (Proc.devRef .tc main_v130) = _
  after_results_simp
  rfl
theorem W13_v131 (c : Dev nD) : (W13 m ρ c (Proc.devRef .tc main_v131)) = shapeCast S1x256 (Cert.Spec.vec2 (F := Ideal) (W12 m ρ c (Proc.devRef .tc main_arg7))) shapeCasts_S256_S1x256 := by
  show StableHlo.after hostOps5 (W12 m ρ c) (Proc.devRef .tc main_v131) = _
  after_results_simp
  rfl
/-- The second launch of the layer: bias, normalisation and rectifier entry by entry, which is the reference's
    spelling of the same function of the aggregated product and the layer's five parameter vectors. -/
theorem W14_v132 (c : Dev nD) : (W14 m ρ c (Proc.devRef .tc main_v132)) = Cert.Spec.layer (F := Ideal) (W13 m ρ c (Proc.devRef .tc main_v116)) (Cert.Spec.vec2 (F := Ideal) (W12 m ρ c (Proc.devRef .tc main_arg5))) (Cert.Spec.vec2 (F := Ideal) (W12 m ρ c (Proc.devRef .tc main_arg8))) (Cert.Spec.vec2 (F := Ideal) (W12 m ρ c (Proc.devRef .tc main_arg9))) (Cert.Spec.vec2 (F := Ideal) (W12 m ρ c (Proc.devRef .tc main_arg6))) (Cert.Spec.vec2 (F := Ideal) (W12 m ρ c (Proc.devRef .tc main_arg7))) := by
  refine (W14_arr m ρ c 6).trans ((Cert.KernelIdeal.RegionBn.region5_out (V13 m ρ) c).trans ?_)
  show Cert.BnSpec.bn (W13 m ρ c (Proc.devRef .tc main_v116)) (W13 m ρ c (Proc.devRef .tc main_v127)) (W13 m ρ c (Proc.devRef .tc main_v128)) (W13 m ρ c (Proc.devRef .tc main_v129)) (W13 m ρ c (Proc.devRef .tc main_v130)) (W13 m ρ c (Proc.devRef .tc main_v131)) = _
  rw [W13_v127 m ρ c, W13_v128 m ρ c, W13_v129 m ρ c, W13_v130 m ρ c, W13_v131 m ρ c]
  exact (Cert.BnSpec.refBn_eq _ _ _ _ _ _).symm
/-- The features after layer 3, as the network's function of the argument arrays. -/
theorem x3_eq (c : Dev nD) : (W14 m ρ c (Proc.devRef .tc main_v132)) = Cert.Spec.x3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W14_v132 m ρ c, W13_v116 m ρ c, W12_v103 m ρ c, in2_x m ρ c, in2_w m ρ c,
    W12_v5 m ρ c, W12_v6 m ρ c, W12_v29 m ρ c, W12_arg5 m ρ c, W12_arg8 m ρ c, W12_arg9 m ρ c, W12_arg6 m ρ c, W12_arg7 m ρ c]
  rfl

/-! ## The mean over each graph and the projection -/

theorem W15_v144 (c : Dev nD) : (W15 m ρ c (Proc.devRef .tc main_v144)) = Cert.Spec.pool (F := Ideal) (W14 m ρ c (Proc.devRef .tc main_v132)) (W14 m ρ c (Proc.devRef .tc main_arg2)) := by
  show StableHlo.after hostOps6 (W14 m ρ c) (Proc.devRef .tc main_v144) = _
  after_results_simp
  rfl
theorem W15_v145 (c : Dev nD) : (W15 m ρ c (Proc.devRef .tc main_v145)) = shapeCast S1x128 (W14 m ρ c (Proc.devRef .tc main_arg11)) shapeCasts_S128_S1x128 := by
  show StableHlo.after hostOps6 (W14 m ρ c) (Proc.devRef .tc main_v145) = _
  after_results_simp
  rfl
theorem W15_arg10 (c : Dev nD) : (W15 m ρ c (Proc.devRef .tc main_arg10)) = m ((c.tc : Thread nD τ).loc main_arg10) :=
  (step15 m ρ c main_arg10 (Or.inr (Or.inr (Or.inr (Or.inr (Or.inr (Or.inr (Or.inr (Or.inr (Or.inr (Or.inr (Or.inl rfl)))))))))))).trans (W14_arg10 m ρ c)

/-- THE RESULT: the last launch's output array is the network of the argument arrays. -/
theorem result (c : Dev nD) : (W16 m ρ c (Proc.devRef .tc main_v146)) = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W16_arr m ρ c 3).trans ((Cert.KernelIdeal.RegionDot.region6_out (V15 m ρ) c (W14 m ρ c (Proc.devRef .tc main_arg11)) (W15_v145 m ρ c)).trans ?_)
  show Cert.Spec.proj (F := Ideal) (W15 m ρ c (Proc.devRef .tc main_v144)) (W15 m ρ c (Proc.devRef .tc main_arg10)) (W14 m ρ c (Proc.devRef .tc main_arg11)) = _
  rw [W15_v144 m ρ c, W15_arg10 m ρ c, W14_arg11 m ρ c, W14_arg2 m ρ c, x3_eq m ρ c]
  rfl

end Cert.KernelIdeal.Net

end
-- ==== Proof.RefEq.lean ====
/-
  The reference program's result is the network.

  The reference's run ends with its result array at the composition of its host operations applied to the argument
  arrays. That composition, written out, is stage by stage the network's definition: the same operations in the same
  order, so the two are one term.
-/
import proofs.«122568_j8942121910543_1_alg».proof.Proof.RefRun
import proofs.«122568_j8942121910543_1_alg».proof.Proof.Spec

noncomputable section

namespace Cert.ReferenceIdeal.RefEq

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The reference's composed result term is the network of the argument arrays. -/
theorem res_eq (m : (ℓ : Loc nD τ sig) → Buf (Elt F) ℓ) (c : Dev nD) :
    Cert.ReferenceIdeal.ValueP.res_main_v187 (F := F) m c
      = Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v187
  rfl

end Cert.ReferenceIdeal.RefEq

end
-- ==== Proof.lean ====
/-
  The certificate of the graph convolution encoder: a Pallas program (three layers, each a dense product launch,
  the host's gather / scatter aggregation and an entry-by-entry normalisation launch; then a mean over each graph on the
  host and a projection launch) against its plain host reference.

  The three frames: the two kernel programs' frames are the generated frame certificates; the reference has no launch,
  and its frame is its run with the result dropped. The idealization rewrote nothing, so `preserves` is trivial.
  `algebraic`: at the ideal instance both programs end with the result array at ONE function of the argument arrays,
  the network `Cert.Spec.out`. The kernel program: its run ends with the result array at the contents the last
  launch leaves (Proof/KRun.lean), which are the network (Proof/Net.lean: each product launch is the whole product, each
  normalisation launch is the reference's spelling of that stage, the host stages are the same operations). The
  reference: its run ends at its operations' composed term, which is the network written out (Proof/RefEq.lean). No
  step uses that the inputs are finite: the two programs apply the same exact operations in the same order.
-/
import proofs.«122568_j8942121910543_1_alg».proof.Defs
import proofs.«122568_j8942121910543_1_alg».proof.Proof.Gen.Kernel
import proofs.«122568_j8942121910543_1_alg».proof.Proof.Gen.Kernel.Skeleton
import proofs.«122568_j8942121910543_1_alg».proof.Proof.Gen.Kernel.Launch
import proofs.«122568_j8942121910543_1_alg».proof.Proof.Gen.Kernel.Points
import proofs.«122568_j8942121910543_1_alg».proof.Proof.Gen.Kernel.Frame
import proofs.«122568_j8942121910543_1_alg».proof.Proof.Gen.KernelIdeal
import proofs.«122568_j8942121910543_1_alg».proof.Proof.Gen.KernelIdeal.Skeleton
import proofs.«122568_j8942121910543_1_alg».proof.Proof.Gen.KernelIdeal.Launch
import proofs.«122568_j8942121910543_1_alg».proof.Proof.Gen.KernelIdeal.Points
import proofs.«122568_j8942121910543_1_alg».proof.Proof.Gen.KernelIdeal.Frame
import proofs.«122568_j8942121910543_1_alg».proof.Proof.Gen.ReferenceIdeal
import proofs.«122568_j8942121910543_1_alg».proof.Proof.Gen.Pre_finite_inputs
import proofs.«122568_j8942121910543_1_alg».proof.Proof.KRun
import proofs.«122568_j8942121910543_1_alg».proof.Proof.Net
import proofs.«122568_j8942121910543_1_alg».proof.Proof.RefRun
import proofs.«122568_j8942121910543_1_alg».proof.Proof.RefEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the network of the argument arrays, which agree. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Net.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefEq.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
